-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S4x1024x1024 : Shape := ⟨3, ![4, 1024, 1024]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x1 .f32) (main_arg7 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_v33

def fn {F : FTy → Type} [FloatOps F] (main_arg0 : FVec F S4x1024 .f32) (main_arg1 : FVec F S4x1024x1024 .f32) (main_arg2 : FVec F S3x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S3x32 .f32 := Host.absf main_arg2
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S4x1024 : Shape := ⟨2, ![4, 1024]⟩
abbrev S4x1024x1024 : Shape := ⟨3, ![4, 1024, 1024]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S4x1024x1 : Shape := ⟨3, ![4, 1024, 1]⟩
abbrev S4x1x1024 : Shape := ⟨3, ![4, 1, 1024]⟩
abbrev S1x32 : Shape := ⟨2, ![1, 32]⟩
abbrev S1x16x1 : Shape := ⟨3, ![1, 16, 1]⟩
abbrev S1x1x1024 : Shape := ⟨3, ![1, 1, 1024]⟩
abbrev S1x16x1024 : Shape := ⟨3, ![1, 16, 1024]⟩
abbrev S1x1 : Shape := ⟨2, ![1, 1]⟩
abbrev S1x1024 : Shape := ⟨2, ![1, 1024]⟩
abbrev S1x1x1 : Shape := ⟨3, ![1, 1, 1]⟩
abbrev S1024 : Shape := ⟨1, ![1024]⟩
abbrev S32x1024 : Shape := ⟨2, ![32, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4x1024, .f32⟩
  | .hbm, ⟨1, _⟩ => ⟨S4x1024x1024, .f32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S4x1024x1, .f32⟩
  | .hbm, ⟨9, _⟩ => ⟨S4x1x1024, .f32⟩
  | .hbm, ⟨10, _⟩ => ⟨S32x32, .f32⟩
  | .hbm, ⟨11, _⟩ => ⟨S1x32, .f32⟩
  | .hbm, ⟨12, _⟩ => ⟨S4x1024x1024, .f32⟩
  | .local _ .vmem, ⟨0, _⟩ => ⟨S1x16x1, .f32⟩
  | .local _ .vmem, ⟨1, _⟩ => ⟨S1x16x1, .f32⟩
  | .local _ .vmem, ⟨2, _⟩ => ⟨S1x1x1024, .f32⟩
  | .local _ .vmem, ⟨3, _⟩ => ⟨S1x1x1024, .f32⟩
  | .local _ .vmem, ⟨4, _⟩ => ⟨S1x16x1024, .f32⟩
  | .local _ .vmem, ⟨5, _⟩ => ⟨S1x16x1024, .f32⟩
  | .local _ .vmem, ⟨6, _⟩ => ⟨S3x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S1x32, .f32⟩
  | .local _ .vmem, ⟨11, _⟩ => ⟨S1, .f32⟩
  | .local _ .vmem, ⟨12, _⟩ => ⟨S1x16x1024, .f32⟩
  | .local _ .vmem, ⟨13, _⟩ => ⟨S1x16x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S4x1024_S4x1024x1_0_1 : S4x1024.BroadcastsInDim S4x1024x1 (![0, 1] : Fin 2 → Fin S4x1024x1.rank)
  bcast_S4x1024_S4x1x1024_0_2 : S4x1024.BroadcastsInDim S4x1x1024 (![0, 2] : Fin 2 → Fin S4x1x1024.rank)
  transposes_S32x32_S32x32_1_0 : S32x32.Transposes [1, 0] S32x32
  transposes_S32x1_S1x32_1_0 : S32x1.Transposes [1, 0] S1x32
  inb_S3x32_S3x32_0_0 : ∀ a, (![0, 0] : Fin 2 → Nat) a + S3x32.size a ≤ S3x32.size a
  h_S3x32 : 0 < S3x32.numel
  inb_S32_S32_0 : ∀ a, (![0] : Fin 1 → Nat) a + S32.size a ≤ S32.size a
  h_S32 : 0 < S32.numel
  shapeCasts_S32_S32x1 : S32.ShapeCasts S32x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1_S1_0 : ∀ a, (![0] : Fin 1 → Nat) a + S1.size a ≤ S1.size a
  h_S1 : 0 < S1.numel
  shapeCasts_S1_S1x1 : S1.ShapeCasts S1x1
  slices_S3x32_o0_0_S1x32 : S3x32.Slices ![0, 0] S1x32
  shapeCasts_S1x32_S32 : S1x32.ShapeCasts S32
  slices_S3x32_o1_0_S1x32 : S3x32.Slices ![1, 0] S1x32
  slices_S3x32_o2_0_S1x32 : S3x32.Slices ![2, 0] S1x32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x16x1_S1x1x1_0_0_0 : ∀ a, (![0, 0, 0] : Fin 3 → Nat) a + S1x1x1.size a ≤ S1x16x1.size a
  h_S1x1x1 : 0 < S1x1x1.numel
  shapeCasts_S1x1x1_S1 : S1x1x1.ShapeCasts S1
  inb_S1x16x1024_S1x1x1024_0_0_0 : ∀ a, (![0, 0, 0] : Fin 3 → Nat) a + S1x1x1024.size a ≤ S1x16x1024.size a
  shapeCasts_S1x1x1024_S1024 : S1x1x1024.ShapeCasts S1024
  broadcasts_S1x1_S32x1 : S1x1.Broadcasts S32x1
  broadcasts_S32x1_S32x1024 : S32x1.Broadcasts S32x1024
  broadcasts_S1x1024_S32x1024 : S1x1024.Broadcasts S32x1024
  shapeCasts_S1024_S1x1024 : S1024.ShapeCasts S1x1024
  broadcasts_S1x1_S1x1024 : S1x1.Broadcasts S1x1024
  shapeCasts_S1x1024_S1024 : S1x1024.ShapeCasts S1024
  shapeCasts_S1024_S1x1x1024 : S1024.ShapeCasts S1x1x1024
  inb_S1x16x1_S1x1x1_0_1_0 : ∀ a, (![0, 1, 0] : Fin 3 → Nat) a + S1x1x1.size a ≤ S1x16x1.size a
  inb_S1x16x1024_S1x1x1024_0_1_0 : ∀ a, (![0, 1, 0] : Fin 3 → Nat) a + S1x1x1024.size a ≤ S1x16x1024.size a
  inb_S1x16x1_S1x1x1_0_2_0 : ∀ a, (![0, 2, 0] : Fin 3 → Nat) a + S1x1x1.size a ≤ S1x16x1.size a
  inb_S1x16x1024_S1x1x1024_0_2_0 : ∀ a, (![0, 2, 0] : Fin 3 → Nat) a + S1x1x1024.size a ≤ S1x16x1024.size a
  inb_S1x16x1_S1x1x1_0_3_0 : ∀ a, (![0, 3, 0] : Fin 3 → Nat) a + S1x1x1.size a ≤ S1x16x1.size a
  inb_S1x16x1024_S1x1x1024_0_3_0 : ∀ a, (![0, 3, 0] : Fin 3 → Nat) a + S1x1x1024.size a ≤ S1x16x1024.size a
  inb_S1x16x1_S1x1x1_0_4_0 : ∀ a, (![0, 4, 0] : Fin 3 → Nat) a + S1x1x1.size a ≤ S1x16x1.size a
  inb_S1x16x1024_S1x1x1024_0_4_0 : ∀ a, (![0, 4, 0] : Fin 3 → Nat) a + S1x1x1024.size a ≤ S1x16x1024.size a
  inb_S1x16x1_S1x1x1_0_5_0 : ∀ a, (![0, 5, 0] : Fin 3 → Nat) a + S1x1x1.size a ≤ S1x16x1.size a
  inb_S1x16x1024_S1x1x1024_0_5_0 : ∀ a, (![0, 5, 0] : Fin 3 → Nat) a + S1x1x1024.size a ≤ S1x16x1024.size a
  inb_S1x16x1_S1x1x1_0_6_0 : ∀ a, (![0, 6, 0] : Fin 3 → Nat) a + S1x1x1.size a ≤ S1x16x1.size a
  inb_S1x16x1024_S1x1x1024_0_6_0 : ∀ a, (![0, 6, 0] : Fin 3 → Nat) a + S1x1x1024.size a ≤ S1x16x1024.size a
  inb_S1x16x1_S1x1x1_0_7_0 : ∀ a, (![0, 7, 0] : Fin 3 → Nat) a + S1x1x1.size a ≤ S1x16x1.size a
  inb_S1x16x1024_S1x1x1024_0_7_0 : ∀ a, (![0, 7, 0] : Fin 3 → Nat) a + S1x1x1024.size a ≤ S1x16x1024.size a
  inb_S1x16x1_S1x1x1_0_8_0 : ∀ a, (![0, 8, 0] : Fin 3 → Nat) a + S1x1x1.size a ≤ S1x16x1.size a
  inb_S1x16x1024_S1x1x1024_0_8_0 : ∀ a, (![0, 8, 0] : Fin 3 → Nat) a + S1x1x1024.size a ≤ S1x16x1024.size a
  inb_S1x16x1_S1x1x1_0_9_0 : ∀ a, (![0, 9, 0] : Fin 3 → Nat) a + S1x1x1.size a ≤ S1x16x1.size a
  inb_S1x16x1024_S1x1x1024_0_9_0 : ∀ a, (![0, 9, 0] : Fin 3 → Nat) a + S1x1x1024.size a ≤ S1x16x1024.size a
  inb_S1x16x1_S1x1x1_0_10_0 : ∀ a, (![0, 10, 0] : Fin 3 → Nat) a + S1x1x1.size a ≤ S1x16x1.size a
  inb_S1x16x1024_S1x1x1024_0_10_0 : ∀ a, (![0, 10, 0] : Fin 3 → Nat) a + S1x1x1024.size a ≤ S1x16x1024.size a
  inb_S1x16x1_S1x1x1_0_11_0 : ∀ a, (![0, 11, 0] : Fin 3 → Nat) a + S1x1x1.size a ≤ S1x16x1.size a
  inb_S1x16x1024_S1x1x1024_0_11_0 : ∀ a, (![0, 11, 0] : Fin 3 → Nat) a + S1x1x1024.size a ≤ S1x16x1024.size a
  inb_S1x16x1_S1x1x1_0_12_0 : ∀ a, (![0, 12, 0] : Fin 3 → Nat) a + S1x1x1.size a ≤ S1x16x1.size a
  inb_S1x16x1024_S1x1x1024_0_12_0 : ∀ a, (![0, 12, 0] : Fin 3 → Nat) a + S1x1x1024.size a ≤ S1x16x1024.size a
  inb_S1x16x1_S1x1x1_0_13_0 : ∀ a, (![0, 13, 0] : Fin 3 → Nat) a + S1x1x1.size a ≤ S1x16x1.size a
  inb_S1x16x1024_S1x1x1024_0_13_0 : ∀ a, (![0, 13, 0] : Fin 3 → Nat) a + S1x1x1024.size a ≤ S1x16x1024.size a
  inb_S1x16x1_S1x1x1_0_14_0 : ∀ a, (![0, 14, 0] : Fin 3 → Nat) a + S1x1x1.size a ≤ S1x16x1.size a
  inb_S1x16x1024_S1x1x1024_0_14_0 : ∀ a, (![0, 14, 0] : Fin 3 → Nat) a + S1x1x1024.size a ≤ S1x16x1024.size a
  inb_S1x16x1_S1x1x1_0_15_0 : ∀ a, (![0, 15, 0] : Fin 3 → Nat) a + S1x1x1.size a ≤ S1x16x1.size a
  inb_S1x16x1024_S1x1x1024_0_15_0 : ∀ a, (![0, 15, 0] : Fin 3 → Nat) a + S1x1x1024.size a ≤ S1x16x1024.size a
  dot_S32x32_S32x1024_S32x1024_1_0_0_1_n_n_wf : DotDims.WF S32x32 S32x1024 S32x1024 [1] [0] [0] [1] [] []
  dot_S1x32_S32x1024_S1x1024_1_0_0_1_n_n_wf : DotDims.WF S1x32 S32x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1.size a ≤ S4x1024x1.size a
  hwx0_0 : ∀ i : grid0.Coords, EltTy.bits .f32 = 32 ∨ (Rect.block (s := S4x1024x1) S1x16x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S4x1x1024.size a
  hwx0_1 : ∀ i : grid0.Coords, EltTy.bits .f32 = 32 ∨ (Rect.block (s := S4x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S4x1024x1024.size a
  hwx0_2 : ∀ i : grid0.Coords, EltTy.bits .f32 = 32 ∨ (Rect.block (s := S4x1024x1024) S1x16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x1024.size a ≤ S4x1024x1024.size a
  hwx0_9 : ∀ i : grid0.Coords, EltTy.bits .f32 = 32 ∨ (Rect.block (s := S4x1024x1024) S1x16x1024.size (cc0_transform_9 i) (hinb0_9 i)).WholeWords (EltTy.packing .f32)

variable [Facts₀]

def dot_S32x32_S32x1024_S32x1024_1_0_0_1_n_n : DotDims S32x32 S32x1024 S32x1024 where
  lhsContracting := [1]
  rhsContracting := [0]
  lhsNonContracting := [0]
  rhsNonContracting := [1]
  lhsBatch := []
  rhsBatch := []
  wf := dot_S32x32_S32x1024_S32x1024_1_0_0_1_n_n_wf
def dot_S1x32_S32x1024_S1x1024_1_0_0_1_n_n : DotDims S1x32 S32x1024 S1x1024 where
  lhsContracting := [1]
  rhsContracting := [0]
  lhsNonContracting := [0]
  rhsNonContracting := [1]
  lhsBatch := []
  rhsBatch := []
  wf := dot_S1x32_S32x1024_S1x1024_1_0_0_1_n_n_wf

abbrev win0_0 : Pipeline.Window sig grid0 :=
  Pipeline.Window.ofSpec (Memref.whole main_v0) S1x16x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x16x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x1024 : Shape := ⟨2, ![4, 1024]⟩
abbrev S4x1024x1024 : Shape := ⟨3, ![4, 1024, 1024]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S4x1024x1x1 : Shape := ⟨4, ![4, 1024, 1, 1]⟩
abbrev S1x32 : Shape := ⟨2, ![1, 32]⟩
abbrev S1x1x1x32 : Shape := ⟨4, ![1, 1, 1, 32]⟩
abbrev S4x1024x1x32 : Shape := ⟨4, ![4, 1024, 1, 32]⟩
abbrev S4x1x1024x1 : Shape := ⟨4, ![4, 1, 1024, 1]⟩
abbrev S4x1x1024x32 : Shape := ⟨4, ![4, 1, 1024, 32]⟩
abbrev S4x1024x1024x32 : Shape := ⟨4, ![4, 1024, 1024, 32]⟩
abbrev S4x1024x1024x1 : Shape := ⟨4, ![4, 1024, 1024, 1]⟩
abbrev S_ : Shape := ⟨0, ![]⟩
abbrev S1x1x1x1 : Shape := ⟨4, ![1, 1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024x1024, .f32⟩
  | .hbm, ⟨2, _⟩ => ⟨S3x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S4x1024x1x1, .f32⟩
  | .hbm, ⟨9, _⟩ => ⟨S1x32, .f32⟩
  | .hbm, ⟨10, _⟩ => ⟨S32, .f32⟩
  | .hbm, ⟨11, _⟩ => ⟨S1x1x1x32, .f32⟩
  | .hbm, ⟨12, _⟩ => ⟨S4x1024x1x32, .f32⟩
  | .hbm, ⟨13, _⟩ => ⟨S4x1024x1x32, .f32⟩
  | .hbm, ⟨14, _⟩ => ⟨S4x1024x1x32, .f32⟩
  | .hbm, ⟨15, _⟩ => ⟨S4x1x1024x1, .f32⟩
  | .hbm, ⟨16, _⟩ => ⟨S1x32, .f32⟩
  | .hbm, ⟨17, _⟩ => ⟨S32, .f32⟩
  | .hbm, ⟨18, _⟩ => ⟨S1x1x1x32, .f32⟩
  | .hbm, ⟨19, _⟩ => ⟨S4x1x1024x32, .f32⟩
  | .hbm, ⟨20, _⟩ => ⟨S4x1x1024x32, .f32⟩
  | .hbm, ⟨21, _⟩ => ⟨S4x1x1024x32, .f32⟩
  | .hbm, ⟨22, _⟩ => ⟨S4x1024x1024x32, .f32⟩
  | .hbm, ⟨23, _⟩ => ⟨S4x1024x1024x32, .f32⟩
  | .hbm, ⟨24, _⟩ => ⟨S4x1024x1024x32, .f32⟩
  | .hbm, ⟨25, _⟩ => ⟨S4x1024x1024x1, .f32⟩
  | .hbm, ⟨26, _⟩ => ⟨S1x32, .f32⟩
  | .hbm, ⟨27, _⟩ => ⟨S32, .f32⟩
  | .hbm, ⟨28, _⟩ => ⟨S1x1x1x32, .f32⟩
  | .hbm, ⟨29, _⟩ => ⟨S4x1024x1024x32, .f32⟩
  | .hbm, ⟨30, _⟩ => ⟨S4x1024x1024x32, .f32⟩
  | .hbm, ⟨31, _⟩ => ⟨S4x1024x1024x32, .f32⟩
  | .hbm, ⟨32, _⟩ => ⟨S4x1024x1024x32, .f32⟩
  | .hbm, ⟨33, _⟩ => ⟨S1x1x1x32, .f32⟩
  | .hbm, ⟨34, _⟩ => ⟨S4x1024x1024x32, .f32⟩
  | .hbm, ⟨35, _⟩ => ⟨S4x1024x1024x32, .f32⟩
  | .hbm, ⟨36, _⟩ => ⟨S_, .f32⟩
  | .hbm, ⟨37, _⟩ => ⟨S4x1024x1024x32, .f32⟩
  | .hbm, ⟨38, _⟩ => ⟨S4x1024x1024x32, .f32⟩
  | .hbm, ⟨39, _⟩ => ⟨S4x1024x1024x32, .f32⟩
  | .hbm, ⟨40, _⟩ => ⟨S1x1x1x32, .f32⟩
  | .hbm, ⟨41, _⟩ => ⟨S4x1024x1024x32, .f32⟩
  | .hbm, ⟨42, _⟩ => ⟨S4x1024x1024x32, .f32⟩
  | .hbm, ⟨43, _⟩ => ⟨S_, .f32⟩
  | .hbm, ⟨44, _⟩ => ⟨S4x1024x1024x32, .f32⟩
  | .hbm, ⟨45, _⟩ => ⟨S4x1024x1024x32, .f32⟩
  | .hbm, ⟨46, _⟩ => ⟨S4x1024x1024x1, .f32⟩
  | .hbm, ⟨47, _⟩ => ⟨S1x1x1x1, .f32⟩
  | .hbm, ⟨48, _⟩ => ⟨S4x1024x1024x1, .f32⟩
  | .hbm, ⟨49, _⟩ => ⟨S4x1024x1024x1, .f32⟩
  | .hbm, ⟨50, _⟩ => ⟨S4x1024x1024, .f32⟩
  | .hbm, ⟨51, _⟩ => ⟨S_, .f32⟩
  | .hbm, ⟨52, _⟩ => ⟨S4x1024x1024, .f32⟩
  | .hbm, ⟨53, _⟩ => ⟨S4x1024x1024, .f32⟩
  | .hbm, ⟨54, _⟩ => ⟨S4x1024x1024, .f32⟩
  | .hbm, ⟨55, _⟩ => ⟨S4x1024x1024, .f32⟩
  | .hbm, ⟨56, _⟩ => ⟨S4x1024x1024, .i1⟩
  | .hbm, ⟨57, _⟩ => ⟨S4x1024x1024, .f32⟩
  | .hbm, ⟨58, _⟩ => ⟨S4x1024x1024, .f32⟩
  | .hbm, ⟨59, _⟩ => ⟨S4x1024x1024, .f32⟩
  | .hbm, ⟨60, _⟩ => ⟨S4x1024x1024, .f32⟩
  | .hbm, ⟨61, _⟩ => ⟨S4x1024x1024, .f32⟩
  | .hbm, ⟨62, _⟩ => ⟨S4x1024x1024, .f32⟩
  | .hbm, ⟨63, _⟩ => ⟨S4x1024x1024, .f32⟩
  | .hbm, ⟨64, _⟩ => ⟨S4x1024x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_cst : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call1_cst : Ref sig .tc := ⟨.hbm, 43, rfl⟩
abbrev main_call1_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  bcast_S4x1024_S4x1024x1x1_0_1 : S4x1024.BroadcastsInDim S4x1024x1x1 (![0, 1] : Fin 2 → Fin S4x1024x1x1.rank)
  slices_S3x32_S1x32_0_0 : S3x32.Slices ![0, 0] S1x32
  shapeCasts_S1x32_S32 : S1x32.ShapeCasts S32
  bcast_S32_S1x1x1x32_3 : S32.BroadcastsInDim S1x1x1x32 (![3] : Fin 1 → Fin S1x1x1x32.rank)
  bcast_S4x1024x1x1_S4x1024x1x32_0_1_2_3 : S4x1024x1x1.BroadcastsInDim S4x1024x1x32 (![0, 1, 2, 3] : Fin 4 → Fin S4x1024x1x32.rank)
  bcast_S1x1x1x32_S4x1024x1x32_0_1_2_3 : S1x1x1x32.BroadcastsInDim S4x1024x1x32 (![0, 1, 2, 3] : Fin 4 → Fin S4x1024x1x32.rank)
  bcast_S4x1024_S4x1x1024x1_0_2 : S4x1024.BroadcastsInDim S4x1x1024x1 (![0, 2] : Fin 2 → Fin S4x1x1024x1.rank)
  slices_S3x32_S1x32_1_0 : S3x32.Slices ![1, 0] S1x32
  bcast_S4x1x1024x1_S4x1x1024x32_0_1_2_3 : S4x1x1024x1.BroadcastsInDim S4x1x1024x32 (![0, 1, 2, 3] : Fin 4 → Fin S4x1x1024x32.rank)
  bcast_S1x1x1x32_S4x1x1024x32_0_1_2_3 : S1x1x1x32.BroadcastsInDim S4x1x1024x32 (![0, 1, 2, 3] : Fin 4 → Fin S4x1x1024x32.rank)
  bcast_S4x1024x1x32_S4x1024x1024x32_0_1_2_3 : S4x1024x1x32.BroadcastsInDim S4x1024x1024x32 (![0, 1, 2, 3] : Fin 4 → Fin S4x1024x1024x32.rank)
  bcast_S4x1x1024x32_S4x1024x1024x32_0_1_2_3 : S4x1x1024x32.BroadcastsInDim S4x1024x1024x32 (![0, 1, 2, 3] : Fin 4 → Fin S4x1024x1024x32.rank)
  bcast_S4x1024x1024_S4x1024x1024x1_0_1_2 : S4x1024x1024.BroadcastsInDim S4x1024x1024x1 (![0, 1, 2] : Fin 3 → Fin S4x1024x1024x1.rank)
  slices_S3x32_S1x32_2_0 : S3x32.Slices ![2, 0] S1x32
  bcast_S4x1024x1024x1_S4x1024x1024x32_0_1_2_3 : S4x1024x1024x1.BroadcastsInDim S4x1024x1024x32 (![0, 1, 2, 3] : Fin 4 → Fin S4x1024x1024x32.rank)
  bcast_S1x1x1x32_S4x1024x1024x32_0_1_2_3 : S1x1x1x32.BroadcastsInDim S4x1024x1024x32 (![0, 1, 2, 3] : Fin 4 → Fin S4x1024x1024x32.rank)
  bcast_S_S4x1024x1024x32 : S_.BroadcastsInDim S4x1024x1024x32 (![] : Fin 0 → Fin S4x1024x1024x32.rank)
  bcast_S1_S1x1x1x1_3 : S1.BroadcastsInDim S1x1x1x1 (![3] : Fin 1 → Fin S1x1x1x1.rank)
  bcast_S1x1x1x1_S4x1024x1024x1_0_1_2_3 : S1x1x1x1.BroadcastsInDim S4x1024x1024x1 (![0, 1, 2, 3] : Fin 4 → Fin S4x1024x1024x1.rank)
  shapeCasts_S4x1024x1024x1_S4x1024x1024 : S4x1024x1024x1.ShapeCasts S4x1024x1024
  bcast_S_S4x1024x1024 : S_.BroadcastsInDim S4x1024x1024 (![] : Fin 0 → Fin S4x1024x1024.rank)
  dot_S4x1024x1024x32_S32x32_S4x1024x1024x32_3_0_012_1_n_n_wf : DotDims.WF S4x1024x1024x32 S32x32 S4x1024x1024x32 [3] [0] [0, 1, 2] [1] [] []
  dot_S4x1024x1024x32_S32x1_S4x1024x1024x1_3_0_012_1_n_n_wf : DotDims.WF S4x1024x1024x32 S32x1 S4x1024x1024x1 [3] [0] [0, 1, 2] [1] [] []

variable [Facts₀]

def dot_S4x1024x1024x32_S32x32_S4x1024x1024x32_3_0_012_1_n_n : DotDims S4x1024x1024x32 S32x32 S4x1024x1024x32 where
  lhsContracting := [3]
  rhsContracting := [0]
  lhsNonContracting := [0, 1, 2]
  rhsNonContracting := [1]
  lhsBatch := []
  rhsBatch := []
  wf := dot_S4x1024x1024x32_S32x32_S4x1024x1024x32_3_0_012_1_n_n_wf
def dot_S4x1024x1024x32_S32x1_S4x1024x1024x1_3_0_012_1_n_n : DotDims S4x1024x1024x32 S32x1 S4x1024x1024x1 where
  lhsContracting := [3]
  rhsContracting := [0]
  lhsNonContracting := [0, 1, 2]
  rhsNonContracting := [1]
  lhsBatch := []
  rhsBatch := []
  wf := dot_S4x1024x1024x32_S32x1_S4x1024x1024x1_3_0_012_1_n_n_wf

class Facts : Prop extends Facts₀ where

variable [Facts]
-- ==== Proof.KernelRow.lean ====
/-
  One row of a block.

  At a grid point the body handles sixteen consecutive rows `i` of one batch, one after the other and each the same
  way: from the row's own weight `w b i` (a single number), the batch's whole weight vector `w b ·` and the row
  `d b i ·` of distances it computes, for all 1024 columns `j` at once, the perceptron's three layers and the
  softplus, and stores the 1024 results as row `i` of the output block. `rowVal` is that computation as a function of
  what the body loads; the sixteen stored values are `rowVal` of the sixteen rows' loads, because the sixteen copies
  of the text differ only in where they are cut into named pieces.
-/
import proofs.«107221_j23313082483163_2_alg».proof.Proof.Gen.KernelIdeal.Skeleton

noncomputable section

namespace Cert.KernelIdeal.RowValue

open Idealize.ShloMosaic Idealize.SL.Sem Cert.KernelIdeal Cert.KernelIdeal.Gen

variable {F : FTy → Type} [FloatOps F]

/-- The 1024 values stored for one row, from the loaded parameters (`y3` the first layer's weights, `y4` its bias,
    `y5` the second layer's weights TRANSPOSED, `y6` its bias, `y7` the output layer's weights as a row, `y8` its
    bias), the batch's weight vector `y1`, the row's own weight `wi` and the row of distances `dr`. -/
def rowVal (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) : FVec F S1x1x1024 .f32 :=
  k0_pay13 (k0_pay2 y4) (k0_pay3 y5) (k0_pay4 y6) (k0_pay5 y7) (k0_pay6 y8) (k0_pay11 y3 y1 wi) (k0_pay12 y3 dr)

/-! ## The row's computation in four stages

The stored value is the softplus of the output unit of the second layer of the first layer; each stage below is one
of these as a function of the stage before it, whatever that is. -/

/-- The first layer after its relu, all hidden units `h` and columns `j` at once: the two products already summed
    (`s01`), the third product (`s2`), the bias column `p2`. -/
def stage1 (p2 : FVec F S32x1 .f32) (s01 s2 : FVec F S32x1024 .f32) : FVec F S32x1024 .f32 :=
  maximumf (addf (addf s01 s2) (broadcastTo S32x1024 p2 broadcasts_S32x1_S32x1024))
    (broadcast S32x1024 (Scalar.ofBits .f32 0x00000000#32))

/-- The second layer after its relu: the transposed weight matrix `p3` times the activations `A`, plus the bias
    column `p4`. -/
def stage2 (p3 : FVec F S32x32 .bf16) (p4 : FVec F S32x1 .f32) (A : FVec F S32x1024 .f32) : FVec F S32x1024 .f32 :=
  maximumf (addf (matmul dot_S32x32_S32x1024_S32x1024_1_0_0_1_n_n none p3 (truncf .bf16 A bitsLt_bf16_f32)
      (constant S32x1024 .f32 0x00000000#32)) (broadcastTo S32x1024 p4 broadcasts_S32x1_S32x1024))
    (broadcast S32x1024 (Scalar.ofBits .f32 0x00000000#32))

/-- The output unit: the weight row `p5` times the activations `B`, plus the bias `p6`. -/
def stage3 (p5 : FVec F S1x32 .bf16) (p6 : FVec F S1x1 .f32) (B : FVec F S32x1024 .f32) : FVec F S1x1024 .f32 :=
  addf (matmul dot_S1x32_S32x1024_S1x1024_1_0_0_1_n_n none p5 (truncf .bf16 B bitsLt_bf16_f32)
    (constant S1x1024 .f32 0x00000000#32)) (broadcastTo S1x1024 p6 broadcasts_S1x1_S1x1024)

/-- The softplus of a row `Z` of outputs, laid out as the block's row. -/
def stage4 (Z : FVec F S1x1024 .f32) : FVec F S1x1x1024 .f32 :=
  shapeCast S1x1x1024
    (select
      (cmpf .one
        (subf (shapeCast S1024 Z shapeCasts_S1x1024_S1024) (broadcast S1024 (Scalar.ofBits .f32 0x00000000#32)))
        (subf (shapeCast S1024 Z shapeCasts_S1x1024_S1024) (broadcast S1024 (Scalar.ofBits .f32 0x00000000#32))))
      (addf (shapeCast S1024 Z shapeCasts_S1x1024_S1024) (broadcast S1024 (Scalar.ofBits .f32 0x00000000#32)))
      (addf
        (maximumf (shapeCast S1024 Z shapeCasts_S1x1024_S1024) (broadcast S1024 (Scalar.ofBits .f32 0x00000000#32)))
        (log1p (exp (subf (broadcast S1024 (Scalar.ofBits .f32 0x00000000#32))
          (absf (subf (shapeCast S1024 Z shapeCasts_S1x1024_S1024)
            (broadcast S1024 (Scalar.ofBits .f32 0x00000000#32)))))))))
    shapeCasts_S1024_S1x1x1024

/-- A row's stored value is the four stages composed. -/
theorem rowVal_stages (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    rowVal y3 y4 y5 y6 y7 y8 y1 wi dr
      = stage4 (stage3 (k0_pay5 y7) (k0_pay6 y8) (stage2 (k0_pay3 y5) (k0_pay4 y6)
          (stage1 (k0_pay2 y4) (k0_pay11 y3 y1 wi) (k0_pay12 y3 dr)))) := rfl

/-! ## The other fifteen rows are the same computation -/

theorem row1_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay17 (k0_pay2 y4) (k0_pay3 y5) (k0_pay4 y6) (k0_pay5 y7) (k0_pay6 y8) (k0_pay9 y3) (k0_pay14 dr) (k0_pay15 (k0_pay8 y3) (k0_pay10 y1)) (k0_pay16 (k0_pay7 y3) wi)
      = rowVal y3 y4 y5 y6 y7 y8 y1 wi dr := rfl

theorem row2_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay20 (k0_pay2 y4) (k0_pay3 y5) (k0_pay4 y6) (k0_pay5 y7) (k0_pay6 y8) (k0_pay7 y3) (k0_pay8 y3) (k0_pay9 y3) (k0_pay10 y1) (k0_pay18 dr) (k0_pay19 wi)
      = rowVal y3 y4 y5 y6 y7 y8 y1 wi dr := rfl

theorem row3_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay22 (k0_pay2 y4) (k0_pay3 y5) (k0_pay4 y6) (k0_pay5 y7) (k0_pay6 y8) (k0_pay7 y3) (k0_pay8 y3) (k0_pay9 y3) (k0_pay10 y1) (k0_pay21 wi) dr
      = rowVal y3 y4 y5 y6 y7 y8 y1 wi dr := rfl

theorem row4_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay24 (k0_pay23 (k0_pay2 y4) (k0_pay3 y5) (k0_pay4 y6) (k0_pay5 y7) (k0_pay6 y8) (k0_pay7 y3) (k0_pay8 y3) (k0_pay9 y3) (k0_pay10 y1) wi dr)
      = rowVal y3 y4 y5 y6 y7 y8 y1 wi dr := rfl

theorem row5_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay30 (k0_pay27 (k0_pay2 y4) (k0_pay3 y5) (k0_pay4 y6) (k0_pay5 y7) (k0_pay6 y8) (k0_pay7 y3) (k0_pay8 y3) (k0_pay9 y3) (k0_pay10 y1) wi dr) (k0_pay28 (k0_pay2 y4) (k0_pay3 y5) (k0_pay4 y6) (k0_pay5 y7) (k0_pay6 y8) (k0_pay7 y3) (k0_pay8 y3) (k0_pay9 y3) (k0_pay10 y1) wi dr) (k0_pay29 (k0_pay2 y4) (k0_pay3 y5) (k0_pay4 y6) (k0_pay5 y7) (k0_pay6 y8) (k0_pay7 y3) (k0_pay8 y3) (k0_pay9 y3) (k0_pay10 y1) wi dr)
      = rowVal y3 y4 y5 y6 y7 y8 y1 wi dr := rfl

theorem row6_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay37 (k0_pay32 (k0_pay2 y4) (k0_pay3 y5) (k0_pay4 y6) (k0_pay5 y7) (k0_pay6 y8) (k0_pay7 y3) (k0_pay8 y3) (k0_pay9 y3) (k0_pay10 y1) wi dr) (k0_pay34 (k0_pay2 y4) (k0_pay3 y5) (k0_pay4 y6) (k0_pay5 y7) (k0_pay6 y8) (k0_pay7 y3) (k0_pay8 y3) (k0_pay9 y3) (k0_pay10 y1) wi dr) (k0_pay35 (k0_pay2 y4) (k0_pay3 y5) (k0_pay4 y6) (k0_pay5 y7) (k0_pay6 y8) (k0_pay7 y3) (k0_pay8 y3) (k0_pay9 y3) (k0_pay10 y1) wi dr) (k0_pay36 (k0_pay2 y4) (k0_pay3 y5) (k0_pay4 y6) (k0_pay5 y7) (k0_pay6 y8) (k0_pay7 y3) (k0_pay8 y3) (k0_pay9 y3) (k0_pay10 y1) wi dr) (Scalar.ofBits .f32 0x00000000#32)
      = rowVal y3 y4 y5 y6 y7 y8 y1 wi dr := rfl

theorem row7_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay41 (k0_pay38 (k0_pay2 y4) (k0_pay3 y5) (k0_pay4 y6) (k0_pay5 y7) (k0_pay6 y8) (k0_pay7 y3) (k0_pay8 y3) (k0_pay9 y3) (k0_pay10 y1) wi dr) (Scalar.ofBits .f32 0x00000000#32) (k0_pay39 (k0_pay2 y4) (k0_pay3 y5) (k0_pay4 y6) (k0_pay5 y7) (k0_pay6 y8) (k0_pay7 y3) (k0_pay8 y3) (k0_pay9 y3) (k0_pay10 y1) wi dr) (k0_pay40 (k0_pay2 y4) (k0_pay3 y5) (k0_pay4 y6) (k0_pay5 y7) (k0_pay6 y8) (k0_pay7 y3) (k0_pay8 y3) (k0_pay9 y3) (k0_pay10 y1) wi dr)
      = rowVal y3 y4 y5 y6 y7 y8 y1 wi dr := rfl

theorem row8_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay43 (k0_pay42 (k0_pay2 y4) (k0_pay3 y5) (k0_pay4 y6) (k0_pay5 y7) (k0_pay6 y8) (k0_pay7 y3) (k0_pay8 y3) (k0_pay9 y3) (k0_pay10 y1) wi dr)
      = rowVal y3 y4 y5 y6 y7 y8 y1 wi dr := rfl

theorem row9_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay45 (k0_pay5 y7) (k0_pay6 y8) (k0_pay44 (k0_pay2 y4) (k0_pay3 y5) (k0_pay4 y6) (k0_pay7 y3) (k0_pay8 y3) (k0_pay9 y3) (k0_pay10 y1) wi dr)
      = rowVal y3 y4 y5 y6 y7 y8 y1 wi dr := rfl

theorem row10_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay48 (k0_pay5 y7) (k0_pay6 y8) (k0_pay46 (k0_pay2 y4) (k0_pay3 y5) (k0_pay7 y3) (k0_pay8 y3) (k0_pay9 y3) (k0_pay10 y1) wi dr) (k0_pay47 (k0_pay4 y6))
      = rowVal y3 y4 y5 y6 y7 y8 y1 wi dr := rfl

theorem row11_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay51 (k0_pay3 y5) (k0_pay4 y6) (k0_pay5 y7) (k0_pay6 y8) (k0_pay49 (k0_pay2 y4) (k0_pay7 y3) (k0_pay8 y3) (k0_pay9 y3) (k0_pay10 y1) wi dr) (k0_pay50 (F := F))
      = rowVal y3 y4 y5 y6 y7 y8 y1 wi dr := rfl

theorem row12_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay54 (k0_pay2 y4) (k0_pay3 y5) (k0_pay4 y6) (k0_pay5 y7) (k0_pay6 y8) (k0_pay52 (k0_pay7 y3) (k0_pay8 y3) (k0_pay10 y1) wi) (k0_pay53 (k0_pay9 y3) dr)
      = rowVal y3 y4 y5 y6 y7 y8 y1 wi dr := rfl

theorem row13_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay58 (k0_pay2 y4) (k0_pay3 y5) (k0_pay4 y6) (k0_pay5 y7) (k0_pay6 y8) (k0_pay9 y3) (k0_pay55 dr) (k0_pay56 (k0_pay8 y3) (k0_pay10 y1)) (k0_pay57 (k0_pay7 y3) wi)
      = rowVal y3 y4 y5 y6 y7 y8 y1 wi dr := rfl

theorem row14_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay61 (k0_pay2 y4) (k0_pay3 y5) (k0_pay4 y6) (k0_pay5 y7) (k0_pay6 y8) (k0_pay7 y3) (k0_pay8 y3) (k0_pay9 y3) (k0_pay10 y1) (k0_pay59 dr) (k0_pay60 wi)
      = rowVal y3 y4 y5 y6 y7 y8 y1 wi dr := rfl

theorem row15_eq (y3 : Vec F S3x32 .f32) (y4 : Vec F S32 .f32) (y5 : Vec F S32x32 .f32) (y6 : Vec F S32 .f32) (y7 : Vec F S1x32 .f32) (y8 : Vec F S1 .f32) (y1 : Vec F S1x1x1024 .f32) (wi : Vec F S1x1x1 .f32) (dr : Vec F S1x1x1024 .f32) :
    k0_pay1 (k0_pay64 (k0_pay2 y4) (k0_pay3 y5) (k0_pay4 y6) (k0_pay5 y7) (k0_pay6 y8) (k0_pay7 y3) (k0_pay8 y3) (k0_pay9 y3) (k0_pay10 y1) (k0_pay62 wi) dr) (k0_pay65 (k0_pay2 y4) (k0_pay3 y5) (k0_pay4 y6) (k0_pay5 y7) (k0_pay6 y8) (k0_pay7 y3) (k0_pay8 y3) (k0_pay9 y3) (k0_pay10 y1) (k0_pay62 wi) dr) (k0_pay66 (k0_pay2 y4) (k0_pay3 y5) (k0_pay4 y6) (k0_pay5 y7) (k0_pay6 y8) (k0_pay7 y3) (k0_pay8 y3) (k0_pay9 y3) (k0_pay10 y1) (k0_pay62 wi) dr) (k0_pay67 (k0_pay2 y4) (k0_pay3 y5) (k0_pay4 y6) (k0_pay5 y7) (k0_pay6 y8) (k0_pay7 y3) (k0_pay8 y3) (k0_pay9 y3) (k0_pay10 y1) (k0_pay62 wi) dr)
      = rowVal y3 y4 y5 y6 y7 y8 y1 wi dr := rfl

end Cert.KernelIdeal.RowValue

end
-- ==== Proof.Spec.lean ====
/-
  The function both programs compute, stated once over the extended reals and with no program in sight.

  For a batch `b` and a pair of positions `(i, j)` the three scalar features `w b i`, `w b j`, `d b i j` go
  through a perceptron 3 → 32 → 32 → 1, a relu after each of the first two layers, and the entry of the result is the
  softplus of its output:
    h₁ h  = max (W1 0 h · w b i + W1 1 h · w b j + W1 2 h · d b i j + b1 h) 0
    h₂ k  = max (∑ h, W2 h k · h₁ h + b2 k) 0
    z     = ∑ k, W3 k · h₂ k + b3
    G b i j = softplus z = max z 0 + log (1 + exp (-|z|)).
  Every product is written weight first. One program multiplies the other way round and sums over the hidden axis of a
  larger array; on the extended reals a product commutes and the two sums run over the same `Fin 32`, so no law that
  needs finite entries is used anywhere. The layers take their weights as functions of plain coordinates, so that a
  program holding a weight matrix transposed, or as a row instead of a column, meets the same definitions.
-/
import Idealize.ShloMosaic.PureOps.Ideal
import Idealize.ShloMosaic.PureOps.Ideal.Laws
import Idealize.ShloMosaic.Lib.ValueIdx

noncomputable section

namespace Cert.PairScore

open Idealize.ShloMosaic Idealize.ShloMosaic.ValueIdx

/-- The first layer at hidden unit `h`, from the three features of one pair. -/
def hid1 (W1 : Fin 3 → Fin 32 → EReal) (b1 : Fin 32 → EReal) (wi wj dij : EReal) (h : Fin 32) : EReal :=
  max (W1 0 h * wi + W1 1 h * wj + W1 2 h * dij + b1 h) 0

/-- The second layer at hidden unit `k`, from the first layer's 32 activations; `W2 h k` is the weight from unit `h`
    to unit `k`. -/
def hid2 (W2 : Fin 32 → Fin 32 → EReal) (b2 : Fin 32 → EReal) (a : Fin 32 → EReal) (k : Fin 32) : EReal :=
  max ((∑ h : Fin 32, W2 h k * a h) + b2 k) 0

/-- The output unit, from the second layer's 32 activations. -/
def outPre (W3 : Fin 32 → EReal) (b3 : EReal) (a : Fin 32 → EReal) : EReal :=
  (∑ k : Fin 32, W3 k * a k) + b3

/-- `log (1 + eᶻ)` in the overflow-free form `max z 0 + log (1 + e^{-|z|})`. -/
def softplus (z : EReal) : EReal := max z 0 + Ideal.log1p (Ideal.exp (-(max z (-z))))

/-- The entry for the pair with features `wi`, `wj`, `dij`. -/
def score (W1 : Fin 3 → Fin 32 → EReal) (b1 : Fin 32 → EReal) (W2 : Fin 32 → Fin 32 → EReal) (b2 : Fin 32 → EReal)
    (W3 : Fin 32 → EReal) (b3 : EReal) (wi wj dij : EReal) : EReal :=
  softplus (outPre W3 b3 (hid2 W2 b2 (hid1 W1 b1 wi wj dij)))

/-- `score` depends on its weights only through their values. -/
theorem score_congr {W1 W1' : Fin 3 → Fin 32 → EReal} {b1 b1' : Fin 32 → EReal} {W2 W2' : Fin 32 → Fin 32 → EReal}
    {b2 b2' : Fin 32 → EReal} {W3 W3' : Fin 32 → EReal} {b3 b3' wi wi' wj wj' dij dij' : EReal}
    (h1 : ∀ r h, W1 r h = W1' r h) (hb1 : ∀ h, b1 h = b1' h) (h2 : ∀ h k, W2 h k = W2' h k) (hb2 : ∀ k, b2 k = b2' k)
    (h3 : ∀ k, W3 k = W3' k) (hb3 : b3 = b3') (hwi : wi = wi') (hwj : wj = wj') (hd : dij = dij') :
    score W1 b1 W2 b2 W3 b3 wi wj dij = score W1' b1' W2' b2' W3' b3' wi' wj' dij' := by
  obtain rfl : W1 = W1' := funext fun r => funext fun h => h1 r h
  obtain rfl : b1 = b1' := funext hb1
  obtain rfl : W2 = W2' := funext fun h => funext fun k => h2 h k
  obtain rfl : b2 = b2' := funext hb2
  obtain rfl : W3 = W3' := funext h3
  subst hb3 hwi hwj hd
  rfl

/-- The whole result array: entry `(b, i, j)` from `w b i`, `w b j` and `d b i j`. -/
def G (w : (⟨2, ![4, 1024]⟩ : Shape).Idx → EReal) (d : (⟨3, ![4, 1024, 1024]⟩ : Shape).Idx → EReal)
    (W1 : (⟨2, ![3, 32]⟩ : Shape).Idx → EReal) (b1 : (⟨1, ![32]⟩ : Shape).Idx → EReal)
    (W2 : (⟨2, ![32, 32]⟩ : Shape).Idx → EReal) (b2 : (⟨1, ![32]⟩ : Shape).Idx → EReal)
    (W3 : (⟨2, ![32, 1]⟩ : Shape).Idx → EReal) (b3 : (⟨1, ![1]⟩ : Shape).Idx → EReal) :
    (⟨3, ![4, 1024, 1024]⟩ : Shape).Idx → EReal :=
  fun i => score (fun r h => W1 (ix2 r h)) (fun h => b1 (ix1 h)) (fun h k => W2 (ix2 h k)) (fun k => b2 (ix1 k))
    (fun k => W3 (ix2 k (0 : Fin 1))) (b3 (ix1 (0 : Fin 1))) (w (ix2 (i 0) (i 1))) (w (ix2 (i 0) (i 2))) (d i)

/-! ## The two spellings of softplus

Both programs spell `logaddexp z 0`: the difference `z - 0`, a test of that difference against itself (the source's
guard for a not-a-number, which no extended real is), `z + 0` on the guarded branch. They differ in the comparison's
name and in how the absolute value is negated. -/

theorem cmp_self_one (x : EReal) : Ideal.cmp .one x x = 0#1 := by simp [Ideal.cmp]

theorem cmp_self_une (x : EReal) : Ideal.cmp .une x x = 0#1 := by simp [Ideal.cmp]

/-- With the absolute value subtracted from zero, and the ordered comparison. -/
theorem softplus_sub_form (z : EReal) :
    Scalar.select (Ideal.cmp .one (z - 0) (z - 0)) (z + 0)
      (max z 0 + Ideal.log1p (Ideal.exp (0 - max (z - 0) (-(z - 0))))) = softplus z := by
  rw [cmp_self_one]
  show (if (0#1 : BitVec 1) = 1 then _ else _) = _
  rw [if_neg (by decide), sub_zero, zero_sub]
  rfl

/-- With the absolute value negated, and the unordered comparison. -/
theorem softplus_neg_form (z : EReal) :
    Scalar.select (Ideal.cmp .une (z - 0) (z - 0)) (z + 0)
      (max z 0 + Ideal.log1p (Ideal.exp (-(max (z - 0) (-(z - 0)))))) = softplus z := by
  rw [cmp_self_une]
  show (if (0#1 : BitVec 1) = 1 then _ else _) = _
  rw [if_neg (by decide), sub_zero]
  rfl

end Cert.PairScore

end
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.LibUnitAxes.lean ====
/-
  Shape casts that only add or drop LEADING unit axes of a vector, for any length: a `[1, 1, a]` array recast as a
  vector of length `a` reads, at `i`, the array at `(0, 0, i)`; a vector recast as `[1, 1, a]` reads, at
  `(u, v, i)`, the vector at `i`. Both are the library's read-at-an-index lemma for a cast with the row-major
  arithmetic discharged (a unit axis contributes nothing to a row-major position). No program is imported.
-/
import Idealize.ShloMosaic.Lib.Pipeline.Value
import Idealize.ShloMosaic.Lib.ValueIdx

namespace Cert.LibUnitAxes

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to `[1, 1, a]` reads, at `(u, v, i)`, the operand at `i`, whatever the unit coordinates. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    simp [hu, hv])

end Cert.LibUnitAxes
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KernelRowIdeal.lean ====
/-
  One row of a block, read at a column, on the extended reals.

  Each stage of `rowVal` is read at an index: the first layer at `(h, j)` is
  `max (W1 0 h · wᵢ + W1 1 h · wⱼ + W1 2 h · dᵢⱼ + b1 h) 0`, a product of two matrices into the zero matrix at `(k, j)`
  the sum over the contracted axis, and the softplus the scalar one. The reshapes and broadcasts between them move
  nothing: a column `[32, 1]` is read at `(h, 0)`, a row `[1, 1024]` at `(0, j)`.
-/
import proofs.«107221_j23313082483163_2_alg».proof.Proof.KernelRow
import proofs.«107221_j23313082483163_2_alg».proof.Proof.Spec
import proofs.«107221_j23313082483163_2_alg».proof.Proof.LibColumn
import proofs.«107221_j23313082483163_2_alg».proof.Proof.LibUnitAxes
import proofs.«107221_j23313082483163_2_alg».proof.Proof.LibMatmulPlain
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Idealize.SL.Sem Cert.KernelIdeal Cert.KernelIdeal.Gen
open Cert.LibColumn Cert.LibUnitAxes Cert.LibMatmulPlain Cert.PairScore

/-! ## The loaded parameters, re-laid -/

/-- A bias vector as a column. -/
theorem pay2_apply (v : Vec Ideal S32 .f32) (h : Fin 32) (u : Fin 1) : k0_pay2 (F := Ideal) v (ix2 h u) = v (ix1 h) :=
  shapeCast_a_a1_apply v _ h u

theorem pay4_apply (v : Vec Ideal S32 .f32) (h : Fin 32) (u : Fin 1) : k0_pay4 (F := Ideal) v (ix2 h u) = v (ix1 h) :=
  shapeCast_a_a1_apply v _ h u

/-- A weight matrix cast to its own shape and to the narrower float format: unchanged. -/
theorem pay3_apply (v : Vec Ideal S32x32 .f32) (i : S32x32.Idx) : k0_pay3 (F := Ideal) v i = v i := by
  show shapeCast S32x32 v shapeCasts_S32x32_S32x32 i = v i
  rw [shapeCast_self]

theorem pay5_apply (v : Vec Ideal S1x32 .f32) (i : S1x32.Idx) : k0_pay5 (F := Ideal) v i = v i := by
  show shapeCast S1x32 v shapeCasts_S1x32_S1x32 i = v i
  rw [shapeCast_self]

/-- The output bias, one number, as a `[1, 1]` matrix. -/
theorem pay6_apply (v : Vec Ideal S1 .f32) (a u : Fin 1) : k0_pay6 (F := Ideal) v (ix2 a u) = v (ix1 a) :=
  shapeCast_a_a1_apply v _ a u

/-- Row `r` of the first layer's `[3, 32]` weights as a column. -/
theorem row_as_column (v : Vec Ideal S3x32 .f32) (r : Fin 3) (hs : S3x32.Slices ![r.val, 0] S1x32) (h : Fin 32) (u : Fin 1) :
    shapeCast S32x1 (shapeCast S32 (extractStridedSlice S1x32 ![r.val, 0] v hs) shapeCasts_S1x32_S32) shapeCasts_S32_S32x1 (ix2 h u)
      = v (ix2 r h) := by
  rw [shapeCast_a_a1_apply, shapeCast_1a_a_apply]
  exact slice2_axis0_apply r.val v hs (0 : Fin 1) h r (by simp)

theorem pay7_apply (v : Vec Ideal S3x32 .f32) (h : Fin 32) (u : Fin 1) : k0_pay7 (F := Ideal) v (ix2 h u) = v (ix2 (0 : Fin 3) h) :=
  row_as_column v 0 slices_S3x32_o0_0_S1x32 h u

theorem pay8_apply (v : Vec Ideal S3x32 .f32) (h : Fin 32) (u : Fin 1) : k0_pay8 (F := Ideal) v (ix2 h u) = v (ix2 (1 : Fin 3) h) :=
  row_as_column v 1 slices_S3x32_o1_0_S1x32 h u

theorem pay9_apply (v : Vec Ideal S3x32 .f32) (h : Fin 32) (u : Fin 1) : k0_pay9 (F := Ideal) v (ix2 h u) = v (ix2 (2 : Fin 3) h) :=
  row_as_column v 2 slices_S3x32_o2_0_S1x32 h u

/-- The batch's weight vector as a row. -/
theorem pay10_apply (v : Vec Ideal S1x1x1024 .f32) (a : Fin 1) (j : Fin 1024) :
    k0_pay10 (F := Ideal) v (ix2 a j) = v (ix3 (0 : Fin 1) (0 : Fin 1) j) := by
  have ha : a = 0 := Fin.ext (by omega)
  subst ha
  exact shapeCast_1ab_ab_apply v _ (0 : Fin 1) j

/-- The first two products of the first layer, summed, at `(h, j)`. -/
theorem pay11_apply (y3 : Vec Ideal S3x32 .f32) (y1 : Vec Ideal S1x1x1024 .f32) (wi : Vec Ideal S1x1x1 .f32) (h : Fin 32) (j : Fin 1024) :
    k0_pay11 (F := Ideal) y3 y1 wi (ix2 h j)
      = y3 (ix2 (0 : Fin 3) h) * wi (ix3 (0 : Fin 1) (0 : Fin 1) (0 : Fin 1)) + y3 (ix2 (1 : Fin 3) h) * y1 (ix3 (0 : Fin 1) (0 : Fin 1) j) := by
  show broadcastTo S32x1024 (mulf (k0_pay7 y3) (broadcastTo S32x1 (shapeCast S1x1 (shapeCast S1 wi shapeCasts_S1x1x1_S1) shapeCasts_S1_S1x1) broadcasts_S1x1_S32x1)) broadcasts_S32x1_S32x1024 (ix2 h j)
      + broadcastTo S32x1024 (k0_pay8 y3) broadcasts_S32x1_S32x1024 (ix2 h j) * broadcastTo S32x1024 (k0_pay10 y1) broadcasts_S1x1024_S32x1024 (ix2 h j) = _
  rw [broadcastTo_a1_ab_apply, broadcastTo_a1_ab_apply, broadcastTo_1b_ab_apply, pay8_apply, pay10_apply]
  show k0_pay7 y3 (ix2 h (0 : Fin 1)) * broadcastTo S32x1 (shapeCast S1x1 (shapeCast S1 wi shapeCasts_S1x1x1_S1) shapeCasts_S1_S1x1) broadcasts_S1x1_S32x1 (ix2 h (0 : Fin 1)) + _ = _
  rw [pay7_apply, broadcastTo_1b_ab_apply, shapeCast_a_a1_apply, shapeCast_11a_a_apply]

/-- The third product of the first layer at `(h, j)`. -/
theorem pay12_apply (y3 : Vec Ideal S3x32 .f32) (dr : Vec Ideal S1x1x1024 .f32) (h : Fin 32) (j : Fin 1024) :
    k0_pay12 (F := Ideal) y3 dr (ix2 h j) = y3 (ix2 (2 : Fin 3) h) * dr (ix3 (0 : Fin 1) (0 : Fin 1) j) := by
  show broadcastTo S32x1024 (k0_pay9 y3) broadcasts_S32x1_S32x1024 (ix2 h j)
      * broadcastTo S32x1024 (shapeCast S1x1024 (shapeCast S1024 dr shapeCasts_S1x1x1024_S1024) shapeCasts_S1024_S1x1024) broadcasts_S1x1024_S32x1024 (ix2 h j) = _
  rw [broadcastTo_a1_ab_apply, broadcastTo_1b_ab_apply, pay9_apply, shapeCast_a_1a_apply, shapeCast_11a_a_apply]

/-! ## The four stages at an index -/

theorem stage1_apply (p2 : FVec Ideal S32x1 .f32) (s01 s2 : FVec Ideal S32x1024 .f32) (h : Fin 32) (j : Fin 1024) :
    stage1 (F := Ideal) p2 s01 s2 (ix2 h j) = max (s01 (ix2 h j) + s2 (ix2 h j) + p2 (ix2 h (0 : Fin 1))) 0 := by
  show max (s01 (ix2 h j) + s2 (ix2 h j) + broadcastTo S32x1024 p2 broadcasts_S32x1_S32x1024 (ix2 h j)) (Ideal.ofBits .f32 0x00000000#32) = _
  rw [broadcastTo_a1_ab_apply, Ideal.ofBits_zero_f32]

theorem stage2_apply (p3 : FVec Ideal S32x32 .bf16) (p4 : FVec Ideal S32x1 .f32) (A : FVec Ideal S32x1024 .f32) (k : Fin 32) (j : Fin 1024) :
    stage2 (F := Ideal) p3 p4 A (ix2 k j) = max ((∑ h : Fin 32, p3 (ix2 k h) * A (ix2 h j)) + p4 (ix2 k (0 : Fin 1))) 0 := by
  show max (matmul dot_S32x32_S32x1024_S32x1024_1_0_0_1_n_n none p3 (truncf .bf16 A bitsLt_bf16_f32) (constant (F := Ideal) S32x1024 .f32 0x00000000#32) (ix2 k j)
      + broadcastTo S32x1024 p4 broadcasts_S32x1_S32x1024 (ix2 k j)) (Ideal.ofBits .f32 0x00000000#32) = _
  rw [matmul_zero_apply _ rfl rfl rfl rfl rfl rfl, broadcastTo_a1_ab_apply, Ideal.ofBits_zero_f32]
  rfl

theorem stage3_apply (p5 : FVec Ideal S1x32 .bf16) (p6 : FVec Ideal S1x1 .f32) (B : FVec Ideal S32x1024 .f32) (a : Fin 1) (j : Fin 1024) :
    stage3 (F := Ideal) p5 p6 B (ix2 a j) = (∑ k : Fin 32, p5 (ix2 a k) * B (ix2 k j)) + p6 (ix2 a (0 : Fin 1)) := by
  show matmul dot_S1x32_S32x1024_S1x1024_1_0_0_1_n_n none p5 (truncf .bf16 B bitsLt_bf16_f32) (constant (F := Ideal) S1x1024 .f32 0x00000000#32) (ix2 a j)
      + broadcastTo S1x1024 p6 broadcasts_S1x1_S1x1024 (ix2 a j) = _
  rw [matmul_zero_apply _ rfl rfl rfl rfl rfl rfl, broadcastTo_a1_ab_apply]
  rfl

theorem stage4_apply (Z : FVec Ideal S1x1024 .f32) (u v : Fin 1) (j : Fin 1024) :
    stage4 (F := Ideal) Z (ix3 u v j) = softplus (Z (ix2 (0 : Fin 1) j)) := by
  unfold stage4
  rw [shapeCast_a_11a_apply]
  show Scalar.select (Ideal.cmp .one (shapeCast S1024 Z shapeCasts_S1x1024_S1024 (ix1 j) - Ideal.ofBits .f32 0x00000000#32) (shapeCast S1024 Z shapeCasts_S1x1024_S1024 (ix1 j) - Ideal.ofBits .f32 0x00000000#32))
      (shapeCast S1024 Z shapeCasts_S1x1024_S1024 (ix1 j) + Ideal.ofBits .f32 0x00000000#32)
      (max (shapeCast S1024 Z shapeCasts_S1x1024_S1024 (ix1 j)) (Ideal.ofBits .f32 0x00000000#32)
        + Ideal.log1p (Ideal.exp (Ideal.ofBits .f32 0x00000000#32
          - max (shapeCast S1024 Z shapeCasts_S1x1024_S1024 (ix1 j) - Ideal.ofBits .f32 0x00000000#32)
              (-(shapeCast S1024 Z shapeCasts_S1x1024_S1024 (ix1 j) - Ideal.ofBits .f32 0x00000000#32))))) = _
  rw [shapeCast_1a_a_apply, Ideal.ofBits_zero_f32]
  exact softplus_sub_form _

/-! ## A row at a column -/

/-- Column `j` of a row's stored value is the perceptron's softplus-ed output for the row's weight `wi`, the
    `j`-th weight of the batch and the `j`-th distance of the row; the second layer's matrix is held transposed
    (`y5 (k, h)` is the weight from unit `h` to unit `k`) and the output layer's as a row. -/
theorem rowVal_apply (y3 : Vec Ideal S3x32 .f32) (y4 : Vec Ideal S32 .f32) (y5 : Vec Ideal S32x32 .f32) (y6 : Vec Ideal S32 .f32)
    (y7 : Vec Ideal S1x32 .f32) (y8 : Vec Ideal S1 .f32) (y1 : Vec Ideal S1x1x1024 .f32) (wi : Vec Ideal S1x1x1 .f32)
    (dr : Vec Ideal S1x1x1024 .f32) (u v : Fin 1) (j : Fin 1024) :
    rowVal (F := Ideal) y3 y4 y5 y6 y7 y8 y1 wi dr (ix3 u v j)
      = score (fun r h => y3 (ix2 r h)) (fun h => y4 (ix1 h)) (fun h k => y5 (ix2 k h)) (fun k => y6 (ix1 k))
          (fun k => y7 (ix2 (0 : Fin 1) k)) (y8 (ix1 (0 : Fin 1)))
          (wi (ix3 (0 : Fin 1) (0 : Fin 1) (0 : Fin 1))) (y1 (ix3 (0 : Fin 1) (0 : Fin 1) j)) (dr (ix3 (0 : Fin 1) (0 : Fin 1) j)) := by
  rw [rowVal_stages, stage4_apply, stage3_apply, pay6_apply]
  unfold score outPre
  refine congrArg softplus (congrArg (· + y8 (ix1 (0 : Fin 1))) (Finset.sum_congr rfl fun k _ => ?_))
  rw [pay5_apply, stage2_apply, pay4_apply]
  unfold hid2
  refine congrArg (y7 (ix2 (0 : Fin 1) k) * ·) (congrArg (max · 0) (congrArg (· + y6 (ix1 k)) (Finset.sum_congr rfl fun h _ => ?_)))
  rw [pay3_apply, stage1_apply, pay2_apply, pay11_apply, pay12_apply]
  rfl

end Cert.KernelIdeal.RowValue

end
-- ==== Proof.KernelBlock.lean ====
/-
  A whole block.

  After the body the output's staging buffer holds sixteen rows, each stored once; row `r`, column `j` is the
  perceptron's entry for the weight `x0 (0, r, 0)` of the block's `r`-th row, the batch's `j`-th weight
  `x1 (0, 0, j)` and the distance `x2 (0, r, j)`. The sixteen rectangles tile the buffer, so the buffer IS that one
  function of the block index.
-/
import proofs.«107221_j23313082483163_2_alg».proof.Proof.KernelRowIdeal
import proofs.«107221_j23313082483163_2_alg».proof.Proof.Gen.KernelIdeal.Frame
import Idealize.ShloMosaic.Lib.Pipeline.Value

set_option maxRecDepth 16384

noncomputable section

namespace Cert.KernelIdeal.BlockValue

open Idealize.ShloMosaic Idealize.ShloMosaic.ValueIdx Idealize.SL.Sem Cert.KernelIdeal Cert.KernelIdeal.Gen
open Cert.KernelIdeal.RowValue Cert.PairScore

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Row `r`, column `j` of a block, from the point's input blocks. -/
def entry (x0 : Vec Ideal S1x16x1 .f32) (x1 : Vec Ideal S1x1x1024 .f32) (x2 : Vec Ideal S1x16x1024 .f32) (x3 : Vec Ideal S3x32 .f32) (x4 : Vec Ideal S32 .f32) (x5 : Vec Ideal S32x32 .f32) (x6 : Vec Ideal S32 .f32) (x7 : Vec Ideal S1x32 .f32) (x8 : Vec Ideal S1 .f32) (r : Fin 16) (j : Fin 1024) : EReal :=
  score (fun r h => x3 (ix2 r h)) (fun h => x4 (ix1 h)) (fun h k => x5 (ix2 k h)) (fun k => x6 (ix1 k))
    (fun k => x7 (ix2 (0 : Fin 1) k)) (x8 (ix1 (0 : Fin 1)))
    (x0 (ix3 (0 : Fin 1) r (0 : Fin 1))) (x1 (ix3 (0 : Fin 1) (0 : Fin 1) j)) (x2 (ix3 (0 : Fin 1) r j))

/-- The block as one function of its index. -/
def blockFn (x0 : Vec Ideal S1x16x1 .f32) (x1 : Vec Ideal S1x1x1024 .f32) (x2 : Vec Ideal S1x16x1024 .f32) (x3 : Vec Ideal S3x32 .f32) (x4 : Vec Ideal S32 .f32) (x5 : Vec Ideal S32x32 .f32) (x6 : Vec Ideal S32 .f32) (x7 : Vec Ideal S1x32 .f32) (x8 : Vec Ideal S1 .f32) : S1x16x1024.Idx → EReal :=
  fun y => entry x0 x1 x2 x3 x4 x5 x6 x7 x8 (y 1) (y 2)

/-! ## Where a row's rectangle sits -/

/-- The one weight a row loads: entry `(0, r, 0)` of the block of row weights. -/
theorem ld_row0 (x0 : Vec Ideal S1x16x1 .f32) (r : Nat) (hr : r < 16)
    (inb : ∀ a, (![0, r, 0] : Fin 3 → Nat) a + S1x1x1.size a ≤ S1x16x1.size a) :
    View.ld x0 (Rect.unit (s := S1x16x1) ![0, r, 0] S1x1x1.size inb) (ix3 (0 : Fin 1) (0 : Fin 1) (0 : Fin 1))
      = x0 (ix3 (0 : Fin 1) (⟨r, hr⟩ : Fin 16) (0 : Fin 1)) := by
  show x0 _ = x0 _
  refine congrArg x0 (funext fun a => Fin.ext ?_)
  match a with
  | ⟨0, _⟩ => rfl
  | ⟨1, _⟩ => show r + 1 * 0 = r; omega
  | ⟨2, _⟩ => rfl

/-- The distances a row loads: row `r` of the block of distances. -/
theorem ld_row2 (x2 : Vec Ideal S1x16x1024 .f32) (r : Nat) (hr : r < 16)
    (inb : ∀ a, (![0, r, 0] : Fin 3 → Nat) a + S1x1x1024.size a ≤ S1x16x1024.size a) (j : Fin 1024) :
    View.ld x2 (Rect.unit (s := S1x16x1024) ![0, r, 0] S1x1x1024.size inb) (ix3 (0 : Fin 1) (0 : Fin 1) j)
      = x2 (ix3 (0 : Fin 1) (⟨r, hr⟩ : Fin 16) j) := by
  show x2 _ = x2 _
  refine congrArg x2 (funext fun a => Fin.ext ?_)
  match a with
  | ⟨0, _⟩ => rfl
  | ⟨1, _⟩ => show r + 1 * 0 = r; omega
  | ⟨2, _⟩ => show 0 + 1 * j.val = j.val; omega

/-- An index of the stored row sits in row `r` of the block … -/
theorem emb_row1 (r : Nat) (hr : r < 16)
    (inb : ∀ a, (![0, r, 0] : Fin 3 → Nat) a + S1x1x1024.size a ≤ S1x16x1024.size a) (x : S1x1x1024.Idx) :
    (Rect.unit (s := S1x16x1024) ![0, r, 0] S1x1x1024.size inb).emb x 1 = (⟨r, hr⟩ : Fin 16) := by
  apply Fin.ext
  show r + 1 * (x 1).val = r
  have : (x 1).val < 1 := (x 1).isLt
  omega

/-- … at the same column. -/
theorem emb_row2 (r : Nat)
    (inb : ∀ a, (![0, r, 0] : Fin 3 → Nat) a + S1x1x1024.size a ≤ S1x16x1024.size a) (x : S1x1x1024.Idx) :
    ((Rect.unit (s := S1x16x1024) ![0, r, 0] S1x1x1024.size inb).emb x 2).val = (x 2).val := by
  show 0 + 1 * (x 2).val = (x 2).val
  omega

/-- A row's stored value at a local index is the block function at the index it is stored at: `w0` and `w2` are
    what the row loaded of the row weights and of the distances, the `y`s the parameter blocks loaded whole. -/
theorem rowVal_entry (x0 : Vec Ideal S1x16x1 .f32) (x1 : Vec Ideal S1x1x1024 .f32) (x2 : Vec Ideal S1x16x1024 .f32) (x3 : Vec Ideal S3x32 .f32) (x4 : Vec Ideal S32 .f32) (x5 : Vec Ideal S32x32 .f32) (x6 : Vec Ideal S32 .f32) (x7 : Vec Ideal S1x32 .f32) (x8 : Vec Ideal S1 .f32) (r : Fin 16)
    (y3 : Vec Ideal S3x32 .f32) (y4 : Vec Ideal S32 .f32) (y5 : Vec Ideal S32x32 .f32) (y6 : Vec Ideal S32 .f32)
    (y7 : Vec Ideal S1x32 .f32) (y8 : Vec Ideal S1 .f32) (y1 : Vec Ideal S1x1x1024 .f32)
    (w0 : Vec Ideal S1x1x1 .f32) (w2 : Vec Ideal S1x1x1024 .f32)
    (e3 : y3 = x3) (e4 : y4 = x4) (e5 : y5 = x5) (e6 : y6 = x6) (e7 : y7 = x7) (e8 : y8 = x8) (e1 : y1 = x1)
    (hw0 : w0 (ix3 (0 : Fin 1) (0 : Fin 1) (0 : Fin 1)) = x0 (ix3 (0 : Fin 1) r (0 : Fin 1)))
    (hw2 : ∀ j : Fin 1024, w2 (ix3 (0 : Fin 1) (0 : Fin 1) j) = x2 (ix3 (0 : Fin 1) r j))
    (x : S1x1x1024.Idx) (y : S1x16x1024.Idx) (hy1 : y 1 = r) (hy2 : (y 2).val = (x 2).val) :
    rowVal (F := Ideal) y3 y4 y5 y6 y7 y8 y1 w0 w2 x = blockFn x0 x1 x2 x3 x4 x5 x6 x7 x8 y := by
  subst e3 e4 e5 e6 e7 e8 e1
  obtain ⟨u, v, j, rfl⟩ : ∃ (u v : Fin 1) (j : Fin 1024), x = ix3 u v j := ⟨x 0, x 1, x 2, eq_ix3 x⟩
  have hj : y 2 = j := Fin.ext hy2
  rw [rowVal_apply, hw0, hw2]
  unfold blockFn entry
  rw [hy1, hj]

/-! ## The sixteen stores together -/

/-- What the body leaves in the output's staging buffer is `blockFn` of the point's input blocks. -/
theorem out_eq (x0 : Vec Ideal S1x16x1 .f32) (x1 : Vec Ideal S1x1x1024 .f32) (x2 : Vec Ideal S1x16x1024 .f32) (x3 : Vec Ideal S3x32 .f32) (x4 : Vec Ideal S32 .f32) (x5 : Vec Ideal S32x32 .f32) (x6 : Vec Ideal S32 .f32) (x7 : Vec Ideal S1x32 .f32) (x8 : Vec Ideal S1 .f32) :
    out0_9 (F := Ideal) x0 x1 x2 x3 x4 x5 x6 x7 x8 = blockFn x0 x1 x2 x3 x4 x5 x6 x7 x8 := by
  funext y
  unfold out0_9
  refine View.canon_apply_of_pieces (Val := Elt Ideal) (S := S1x16x1024) (e := .f32) (blockFn x0 x1 x2 x3 x4 x5 x6 x7 x8) _ ?_ y (cover0_9 _ _ _ _ _ _ _ _ _ _ _ _ _ _ _ _ y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩
  · intro x
    refine (congrFun (row15_eq _ _ _ _ _ _ _ _ _) x).trans ?_
    exact rowVal_entry x0 x1 x2 x3 x4 x5 x6 x7 x8 (15 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 15 (by decide) inb_S1x16x1_S1x1x1_0_15_0) (fun j => ld_row2 x2 15 (by decide) inb_S1x16x1024_S1x1x1024_0_15_0 j) x (r0_37.emb x)
      (emb_row1 15 (by decide) inb_S1x16x1024_S1x1x1024_0_15_0 x) (emb_row2 15 inb_S1x16x1024_S1x1x1024_0_15_0 x)
  · intro x
    refine (congrFun (row14_eq _ _ _ _ _ _ _ _ _) x).trans ?_
    exact rowVal_entry x0 x1 x2 x3 x4 x5 x6 x7 x8 (14 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 14 (by decide) inb_S1x16x1_S1x1x1_0_14_0) (fun j => ld_row2 x2 14 (by decide) inb_S1x16x1024_S1x1x1024_0_14_0 j) x (r0_35.emb x)
      (emb_row1 14 (by decide) inb_S1x16x1024_S1x1x1024_0_14_0 x) (emb_row2 14 inb_S1x16x1024_S1x1x1024_0_14_0 x)
  · intro x
    refine (congrFun (row13_eq _ _ _ _ _ _ _ _ _) x).trans ?_
    exact rowVal_entry x0 x1 x2 x3 x4 x5 x6 x7 x8 (13 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 13 (by decide) inb_S1x16x1_S1x1x1_0_13_0) (fun j => ld_row2 x2 13 (by decide) inb_S1x16x1024_S1x1x1024_0_13_0 j) x (r0_33.emb x)
      (emb_row1 13 (by decide) inb_S1x16x1024_S1x1x1024_0_13_0 x) (emb_row2 13 inb_S1x16x1024_S1x1x1024_0_13_0 x)
  · intro x
    refine (congrFun (row12_eq _ _ _ _ _ _ _ _ _) x).trans ?_
    exact rowVal_entry x0 x1 x2 x3 x4 x5 x6 x7 x8 (12 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 12 (by decide) inb_S1x16x1_S1x1x1_0_12_0) (fun j => ld_row2 x2 12 (by decide) inb_S1x16x1024_S1x1x1024_0_12_0 j) x (r0_31.emb x)
      (emb_row1 12 (by decide) inb_S1x16x1024_S1x1x1024_0_12_0 x) (emb_row2 12 inb_S1x16x1024_S1x1x1024_0_12_0 x)
  · intro x
    refine (congrFun (row11_eq _ _ _ _ _ _ _ _ _) x).trans ?_
    exact rowVal_entry x0 x1 x2 x3 x4 x5 x6 x7 x8 (11 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 11 (by decide) inb_S1x16x1_S1x1x1_0_11_0) (fun j => ld_row2 x2 11 (by decide) inb_S1x16x1024_S1x1x1024_0_11_0 j) x (r0_29.emb x)
      (emb_row1 11 (by decide) inb_S1x16x1024_S1x1x1024_0_11_0 x) (emb_row2 11 inb_S1x16x1024_S1x1x1024_0_11_0 x)
  · intro x
    refine (congrFun (row10_eq _ _ _ _ _ _ _ _ _) x).trans ?_
    exact rowVal_entry x0 x1 x2 x3 x4 x5 x6 x7 x8 (10 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 10 (by decide) inb_S1x16x1_S1x1x1_0_10_0) (fun j => ld_row2 x2 10 (by decide) inb_S1x16x1024_S1x1x1024_0_10_0 j) x (r0_27.emb x)
      (emb_row1 10 (by decide) inb_S1x16x1024_S1x1x1024_0_10_0 x) (emb_row2 10 inb_S1x16x1024_S1x1x1024_0_10_0 x)
  · intro x
    refine (congrFun (row9_eq _ _ _ _ _ _ _ _ _) x).trans ?_
    exact rowVal_entry x0 x1 x2 x3 x4 x5 x6 x7 x8 (9 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 9 (by decide) inb_S1x16x1_S1x1x1_0_9_0) (fun j => ld_row2 x2 9 (by decide) inb_S1x16x1024_S1x1x1024_0_9_0 j) x (r0_25.emb x)
      (emb_row1 9 (by decide) inb_S1x16x1024_S1x1x1024_0_9_0 x) (emb_row2 9 inb_S1x16x1024_S1x1x1024_0_9_0 x)
  · intro x
    refine (congrFun (row8_eq _ _ _ _ _ _ _ _ _) x).trans ?_
    exact rowVal_entry x0 x1 x2 x3 x4 x5 x6 x7 x8 (8 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 8 (by decide) inb_S1x16x1_S1x1x1_0_8_0) (fun j => ld_row2 x2 8 (by decide) inb_S1x16x1024_S1x1x1024_0_8_0 j) x (r0_23.emb x)
      (emb_row1 8 (by decide) inb_S1x16x1024_S1x1x1024_0_8_0 x) (emb_row2 8 inb_S1x16x1024_S1x1x1024_0_8_0 x)
  · intro x
    refine (congrFun (row7_eq _ _ _ _ _ _ _ _ _) x).trans ?_
    exact rowVal_entry x0 x1 x2 x3 x4 x5 x6 x7 x8 (7 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 7 (by decide) inb_S1x16x1_S1x1x1_0_7_0) (fun j => ld_row2 x2 7 (by decide) inb_S1x16x1024_S1x1x1024_0_7_0 j) x (r0_21.emb x)
      (emb_row1 7 (by decide) inb_S1x16x1024_S1x1x1024_0_7_0 x) (emb_row2 7 inb_S1x16x1024_S1x1x1024_0_7_0 x)
  · intro x
    refine (congrFun (row6_eq _ _ _ _ _ _ _ _ _) x).trans ?_
    exact rowVal_entry x0 x1 x2 x3 x4 x5 x6 x7 x8 (6 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 6 (by decide) inb_S1x16x1_S1x1x1_0_6_0) (fun j => ld_row2 x2 6 (by decide) inb_S1x16x1024_S1x1x1024_0_6_0 j) x (r0_19.emb x)
      (emb_row1 6 (by decide) inb_S1x16x1024_S1x1x1024_0_6_0 x) (emb_row2 6 inb_S1x16x1024_S1x1x1024_0_6_0 x)
  · intro x
    refine (congrFun (row5_eq _ _ _ _ _ _ _ _ _) x).trans ?_
    exact rowVal_entry x0 x1 x2 x3 x4 x5 x6 x7 x8 (5 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 5 (by decide) inb_S1x16x1_S1x1x1_0_5_0) (fun j => ld_row2 x2 5 (by decide) inb_S1x16x1024_S1x1x1024_0_5_0 j) x (r0_17.emb x)
      (emb_row1 5 (by decide) inb_S1x16x1024_S1x1x1024_0_5_0 x) (emb_row2 5 inb_S1x16x1024_S1x1x1024_0_5_0 x)
  · intro x
    refine (congrFun (row4_eq _ _ _ _ _ _ _ _ _) x).trans ?_
    exact rowVal_entry x0 x1 x2 x3 x4 x5 x6 x7 x8 (4 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 4 (by decide) inb_S1x16x1_S1x1x1_0_4_0) (fun j => ld_row2 x2 4 (by decide) inb_S1x16x1024_S1x1x1024_0_4_0 j) x (r0_15.emb x)
      (emb_row1 4 (by decide) inb_S1x16x1024_S1x1x1024_0_4_0 x) (emb_row2 4 inb_S1x16x1024_S1x1x1024_0_4_0 x)
  · intro x
    refine (congrFun (row3_eq _ _ _ _ _ _ _ _ _) x).trans ?_
    exact rowVal_entry x0 x1 x2 x3 x4 x5 x6 x7 x8 (3 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 3 (by decide) inb_S1x16x1_S1x1x1_0_3_0) (fun j => ld_row2 x2 3 (by decide) inb_S1x16x1024_S1x1x1024_0_3_0 j) x (r0_13.emb x)
      (emb_row1 3 (by decide) inb_S1x16x1024_S1x1x1024_0_3_0 x) (emb_row2 3 inb_S1x16x1024_S1x1x1024_0_3_0 x)
  · intro x
    refine (congrFun (row2_eq _ _ _ _ _ _ _ _ _) x).trans ?_
    exact rowVal_entry x0 x1 x2 x3 x4 x5 x6 x7 x8 (2 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 2 (by decide) inb_S1x16x1_S1x1x1_0_2_0) (fun j => ld_row2 x2 2 (by decide) inb_S1x16x1024_S1x1x1024_0_2_0 j) x (r0_11.emb x)
      (emb_row1 2 (by decide) inb_S1x16x1024_S1x1x1024_0_2_0 x) (emb_row2 2 inb_S1x16x1024_S1x1x1024_0_2_0 x)
  · intro x
    refine (congrFun (row1_eq _ _ _ _ _ _ _ _ _) x).trans ?_
    exact rowVal_entry x0 x1 x2 x3 x4 x5 x6 x7 x8 (1 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 1 (by decide) inb_S1x16x1_S1x1x1_0_1_0) (fun j => ld_row2 x2 1 (by decide) inb_S1x16x1024_S1x1x1024_0_1_0 j) x (r0_9.emb x)
      (emb_row1 1 (by decide) inb_S1x16x1024_S1x1x1024_0_1_0 x) (emb_row2 1 inb_S1x16x1024_S1x1x1024_0_1_0 x)
  · intro x
    refine (rfl).trans ?_
    exact rowVal_entry x0 x1 x2 x3 x4 x5 x6 x7 x8 (0 : Fin 16) _ _ _ _ _ _ _ _ _
      (View.ld_unit_zero hz2 _ x3) (View.ld_unit_zero hz1 _ x4) (View.ld_unit_zero hz2 _ x5) (View.ld_unit_zero hz1 _ x6)
      (View.ld_unit_zero hz2 _ x7) (View.ld_unit_zero hz1 _ x8) (View.ld_unit_zero hz3 _ x1)
      (ld_row0 x0 0 (by decide) inb_S1x16x1_S1x1x1_0_0_0) (fun j => ld_row2 x2 0 (by decide) inb_S1x16x1024_S1x1x1024_0_0_0 j) x (r0_7.emb x)
      (emb_row1 0 (by decide) inb_S1x16x1024_S1x1x1024_0_0_0 x) (emb_row2 0 inb_S1x16x1024_S1x1x1024_0_0_0 x)

end Cert.KernelIdeal.BlockValue

end
-- ==== Proof.KernelValue.lean ====
/-
  From blocks to the whole array.

  The grid has 4 × 64 points; point `(b, q)` stages rows `16 q … 16 q + 15` of batch `b`: the sixteen row weights
  `w b (16 q + r)`, the batch's whole weight vector, the sixteen rows of distances, and the six parameter arrays whole.
  Two of the staged arrays are written by the host before the launch (the weights re-laid as `[4, 1024, 1]` and as
  `[4, 1, 1024]`), and two are transposes (`W2ᵀ`, `W3ᵀ`). What a point writes back is therefore block `(b, q)` of the
  specification's `G` of the ARGUMENT arrays, and since the 256 blocks tile the `[4, 1024, 1024]` result, the result
  is `G`.
-/
import proofs.«107221_j23313082483163_2_alg».proof.Proof.KernelBlock
import proofs.«107221_j23313082483163_2_alg».proof.Proof.Gen.KernelIdeal.Value
import Idealize.ShloMosaic.Lib.Pipeline.Value
import Idealize.ShloMosaic.Lib.ValueLayout
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.BlockValue Cert.PairScore
open Idealize.ShloMosaic.Pipeline (Dat)

variable (m : (ℓ : Loc nD τ sig) → Buf (Elt Ideal) ℓ) (ρ : Dev nD → PrngReg)

/-- The specification's `G` of core `c`'s eight argument arrays. -/
abbrev Garr (c : Dev nD) : S4x1024x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The four arrays the host writes before the launch -/

theorem V_v0 (c : Dev nD) : (V m c main_v0 : S4x1024x1.Idx → EReal)
    = broadcastInDim S4x1024x1 ![0, 1] bcast_S4x1024_S4x1024x1_0_1 (m ((c : Thread nD τ).loc main_arg0)) := by
  dsimp only [Gen.V, Gen.hostOps0]; after_results

theorem V_v1 (c : Dev nD) : (V m c main_v1 : S4x1x1024.Idx → EReal)
    = broadcastInDim S4x1x1024 ![0, 2] bcast_S4x1024_S4x1x1024_0_2 (m ((c : Thread nD τ).loc main_arg0)) := by
  dsimp only [Gen.V, Gen.hostOps0]; after_results

theorem V_v2 (c : Dev nD) : (V m c main_v2 : S32x32.Idx → EReal)
    = transpose S32x32 [1, 0] (m ((c : Thread nD τ).loc main_arg4)) transposes_S32x32_S32x32_1_0 := by
  dsimp only [Gen.V, Gen.hostOps0]; after_results

theorem V_v3 (c : Dev nD) : (V m c main_v3 : S1x32.Idx → EReal)
    = transpose S1x32 [1, 0] (m ((c : Thread nD τ).loc main_arg6)) transposes_S32x1_S1x32_1_0 := by
  dsimp only [Gen.V, Gen.hostOps0]; after_results

/-- The weights as a `[4, 1024, 1]` array: entry `(b, i, 0)` is `w b i`. -/
theorem V_v0_apply (c : Dev nD) (b : Fin 4) (i : Fin 1024) (u : Fin 1) :
    V m c main_v0 (ix3 b i u) = m ((c : Thread nD τ).loc main_arg0) (ix2 b i) := by
  rw [V_v0]
  exact broadcastInDim_apply _ _ _ (ix3 b i u) (ix2 b i) (fun a => match a with
    | ⟨0, _⟩ => by show b.val = if (4 : Nat) = 1 then 0 else b.val; rw [if_neg (by decide)]
    | ⟨1, _⟩ => by show i.val = if (1024 : Nat) = 1 then 0 else i.val; rw [if_neg (by decide)])

/-- The weights as a `[4, 1, 1024]` array: entry `(b, 0, j)` is `w b j`. -/
theorem V_v1_apply (c : Dev nD) (b : Fin 4) (u : Fin 1) (j : Fin 1024) :
    V m c main_v1 (ix3 b u j) = m ((c : Thread nD τ).loc main_arg0) (ix2 b j) := by
  rw [V_v1]
  exact broadcastInDim_apply _ _ _ (ix3 b u j) (ix2 b j) (fun a => match a with
    | ⟨0, _⟩ => by show b.val = if (4 : Nat) = 1 then 0 else b.val; rw [if_neg (by decide)]
    | ⟨1, _⟩ => by show j.val = if (1024 : Nat) = 1 then 0 else j.val; rw [if_neg (by decide)])

/-- The second layer's weights transposed. -/
theorem V_v2_apply (c : Dev nD) (k h : Fin 32) :
    V m c main_v2 (ix2 k h) = m ((c : Thread nD τ).loc main_arg4) (ix2 h k) := by
  rw [V_v2]
  exact transpose_ix2_apply _ _ k h

/-- The output layer's weights as a row. -/
theorem V_v3_apply (c : Dev nD) (u : Fin 1) (k : Fin 32) :
    V m c main_v3 (ix2 u k) = m ((c : Thread nD τ).loc main_arg6) (ix2 k u) := by
  rw [V_v3]
  exact transpose_ix2_apply _ _ u k

/-! ## The index maps, decided over the grid -/

/-- The output's block index: batch, block of sixteen rows, and always the whole row of columns. -/
theorem idx9 : ∀ t : Fin cfg0.N, win0_9.index t (2 : Fin 3) = 0 ∧ win0_9.index t (0 : Fin 3) ≤ 3 ∧ win0_9.index t (1 : Fin 3) ≤ 63 :=
  (by decide +kernel : ∀ t : Fin grid0.N, _)

/-- The row weights and the distances move with the output; the batch's weight vector with its batch. -/
theorem idx012 : ∀ t : Fin cfg0.N,
    win0_0.index t (0 : Fin 3) = win0_9.index t (0 : Fin 3) ∧ win0_0.index t (1 : Fin 3) = win0_9.index t (1 : Fin 3) ∧ win0_0.index t (2 : Fin 3) = 0
    ∧ win0_1.index t (0 : Fin 3) = win0_9.index t (0 : Fin 3) ∧ win0_1.index t (1 : Fin 3) = 0 ∧ win0_1.index t (2 : Fin 3) = 0
    ∧ win0_2.index t (0 : Fin 3) = win0_9.index t (0 : Fin 3) ∧ win0_2.index t (1 : Fin 3) = win0_9.index t (1 : Fin 3) ∧ win0_2.index t (2 : Fin 3) = 0 :=
  (by decide +kernel : ∀ t : Fin grid0.N, _)

/-- The six parameter arrays are staged whole, at block zero. -/
theorem idxP : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)

/-- Every (batch, block of rows) is some point's. -/
theorem idx_onto : ∀ (q0 : Fin 4) (q1 : Fin 64), ∃ t : Fin cfg0.N, win0_9.index t = ![q0.val, q1.val, 0] :=
  (by decide +kernel : ∀ (q0 : Fin 4) (q1 : Fin 64), ∃ t : Fin grid0.N, win0_9.index t = ![q0.val, q1.val, 0])

/-! ## What a point writes back -/

/-- Point `t` writes back block `t` of `G` of the argument arrays. -/
theorem flushed_eq (c : Dev nD) (t : Fin cfg0.N) :
    (dats m 0 c).flushed 9 t = ((cfg0.win 9).blk t).view.read (Elt Ideal) (Garr m c) := by
  rw [Cert.KernelIdeal.Value.flushed9, out_eq]
  obtain ⟨e92, -, -⟩ := idx9 t
  obtain ⟨e00, e01, e02, e10, e11, e12, e20, e21, e22⟩ := idx012 t
  obtain ⟨p30, p31, p40, p50, p51, p60, p70, p71, p80⟩ := idxP t
  funext y
  obtain ⟨u, r, j, rfl⟩ : ∃ (u : Fin 1) (r : Fin 16) (j : Fin 1024), y = ix3 u r j := ⟨y 0, y 1, y 2, eq_ix3 y⟩
  have hu : u.val = 0 := by omega
  obtain ⟨e92', e9b, e9i⟩ := idx9 t
  obtain ⟨B, hB⟩ : ∃ B : Fin 4, B.val = win0_9.index t (0 : Fin 3) := ⟨⟨win0_9.index t (0 : Fin 3), by omega⟩, rfl⟩
  obtain ⟨I, hI⟩ : ∃ I : Fin 1024, I.val = win0_9.index t (1 : Fin 3) * 16 + r.val :=
    ⟨⟨win0_9.index t (1 : Fin 3) * 16 + r.val, by have := r.isLt; omega⟩, rfl⟩
  -- the index the block's entry (0, r, j) is stored at: batch B, row I = 16 q + r, column j
  have hE : ((cfg0.win 9).blk t).view.emb (ix3 u r j) = (ix3 B I j : S4x1024x1024.Idx) := by
    funext ax; apply Fin.ext
    match ax with
    | ⟨0, _⟩ => show win0_9.index t (0 : Fin 3) * 1 + 1 * u.val = B.val; omega
    | ⟨1, _⟩ => show win0_9.index t (1 : Fin 3) * 16 + 1 * r.val = I.val; omega
    | ⟨2, _⟩ => show win0_9.index t (2 : Fin 3) * 1024 + 1 * j.val = j.val; omega
  show entry (iblk m c 0 t) (iblk m c 1 t) (iblk m c 2 t) (iblk m c 3 t) (iblk m c 4 t) (iblk m c 5 t) (iblk m c 6 t) (iblk m c 7 t) (iblk m c 8 t) r j
    = Garr m c (((cfg0.win 9).blk t).view.emb (ix3 u r j))
  refine Eq.trans ?_ (congrArg (Garr m c) hE).symm
  unfold entry Garr G
  refine score_congr (fun a h => ?_) (fun h => ?_) (fun h k => ?_) (fun k => ?_) (fun k => ?_) ?_ ?_ ?_ ?_
  · -- the first layer's weights
    show V m c main_arg2 (((cfg0.win 3).blk t).view.emb (ix2 a h)) = _
    rw [V_main_arg2]
    refine congrArg _ (funext fun ax => Fin.ext ?_)
    match ax with
    | ⟨0, _⟩ => show win0_3.index t (0 : Fin 2) * 3 + 1 * a.val = a.val; omega
    | ⟨1, _⟩ => show win0_3.index t (1 : Fin 2) * 32 + 1 * h.val = h.val; omega
  · -- its bias
    show V m c main_arg3 (((cfg0.win 4).blk t).view.emb (ix1 h)) = _
    rw [V_main_arg3]
    refine congrArg _ (funext fun ax => Fin.ext ?_)
    match ax with
    | ⟨0, _⟩ => show win0_4.index t (0 : Fin 1) * 32 + 1 * h.val = h.val; omega
  · -- the second layer's weights, staged transposed
    show V m c main_v2 (((cfg0.win 5).blk t).view.emb (ix2 k h)) = _
    rw [← V_v2_apply m c k h]
    refine congrArg _ (funext fun ax => Fin.ext ?_)
    match ax with
    | ⟨0, _⟩ => show win0_5.index t (0 : Fin 2) * 32 + 1 * k.val = k.val; omega
    | ⟨1, _⟩ => show win0_5.index t (1 : Fin 2) * 32 + 1 * h.val = h.val; omega
  · -- its bias
    show V m c main_arg5 (((cfg0.win 6).blk t).view.emb (ix1 k)) = _
    rw [V_main_arg5]
    refine congrArg _ (funext fun ax => Fin.ext ?_)
    match ax with
    | ⟨0, _⟩ => show win0_6.index t (0 : Fin 1) * 32 + 1 * k.val = k.val; omega
  · -- the output layer's weights, staged as a row
    show V m c main_v3 (((cfg0.win 7).blk t).view.emb (ix2 (0 : Fin 1) k)) = _
    rw [← V_v3_apply m c (0 : Fin 1) k]
    refine congrArg _ (funext fun ax => Fin.ext ?_)
    match ax with
    | ⟨0, _⟩ => show win0_7.index t (0 : Fin 2) * 1 + 1 * 0 = 0; omega
    | ⟨1, _⟩ => show win0_7.index t (1 : Fin 2) * 32 + 1 * k.val = k.val; omega
  · -- its bias
    show V m c main_arg7 (((cfg0.win 8).blk t).view.emb (ix1 (0 : Fin 1))) = _
    rw [V_main_arg7]
    refine congrArg _ (funext fun ax => Fin.ext ?_)
    match ax with
    | ⟨0, _⟩ => show win0_8.index t (0 : Fin 1) * 1 + 1 * 0 = 0; omega
  · -- the row's own weight
    show V m c main_v0 (((cfg0.win 0).blk t).view.emb (ix3 (0 : Fin 1) r (0 : Fin 1))) = m ((c : Thread nD τ).loc main_arg0) (ix2 B I)
    have e : ((cfg0.win 0).blk t).view.emb (ix3 (0 : Fin 1) r (0 : Fin 1)) = (ix3 B I (0 : Fin 1) : S4x1024x1.Idx) := by
      funext ax; apply Fin.ext
      match ax with
      | ⟨0, _⟩ => show win0_0.index t (0 : Fin 3) * 1 + 1 * 0 = B.val; omega
      | ⟨1, _⟩ => show win0_0.index t (1 : Fin 3) * 16 + 1 * r.val = I.val; omega
      | ⟨2, _⟩ => show win0_0.index t (2 : Fin 3) * 1 + 1 * 0 = 0; omega
    exact (congrArg (V m c main_v0) e).trans (V_v0_apply m c B I (0 : Fin 1))
  · -- the column's weight
    show V m c main_v1 (((cfg0.win 1).blk t).view.emb (ix3 (0 : Fin 1) (0 : Fin 1) j)) = m ((c : Thread nD τ).loc main_arg0) (ix2 B j)
    have e : ((cfg0.win 1).blk t).view.emb (ix3 (0 : Fin 1) (0 : Fin 1) j) = (ix3 B (0 : Fin 1) j : S4x1x1024.Idx) := by
      funext ax; apply Fin.ext
      match ax with
      | ⟨0, _⟩ => show win0_1.index t (0 : Fin 3) * 1 + 1 * 0 = B.val; omega
      | ⟨1, _⟩ => show win0_1.index t (1 : Fin 3) * 1 + 1 * 0 = 0; omega
      | ⟨2, _⟩ => show win0_1.index t (2 : Fin 3) * 1024 + 1 * j.val = j.val; omega
    exact (congrArg (V m c main_v1) e).trans (V_v1_apply m c B (0 : Fin 1) j)
  · -- the distance
    show V m c main_arg1 (((cfg0.win 2).blk t).view.emb (ix3 (0 : Fin 1) r j)) = m ((c : Thread nD τ).loc main_arg1) (ix3 B I j)
    have e : ((cfg0.win 2).blk t).view.emb (ix3 (0 : Fin 1) r j) = (ix3 B I j : S4x1024x1024.Idx) := by
      funext ax; apply Fin.ext
      match ax with
      | ⟨0, _⟩ => show win0_2.index t (0 : Fin 3) * 1 + 1 * 0 = B.val; omega
      | ⟨1, _⟩ => show win0_2.index t (1 : Fin 3) * 16 + 1 * r.val = I.val; omega
      | ⟨2, _⟩ => show win0_2.index t (2 : Fin 3) * 1024 + 1 * j.val = j.val; omega
    exact (congrArg (V m c main_arg1) e).trans (congrFun (V_main_arg1 m c) _)

/-! ## The blocks tile the result -/

/-- An index of the result is in point `t`'s block iff each coordinate is in the block's range on its axis. -/
theorem mem_blk (t : Fin cfg0.N) (i : S4x1024x1024.Idx) :
    i ∈ ((cfg0.win 9).blk t).view.set ↔ ∀ a : Fin 3, win0_9.index t a * S1x16x1024.size a ≤ (i a).val
      ∧ (i a).val < win0_9.index t a * S1x16x1024.size a + S1x16x1024.size a := by
  show i ∈ ((View.whole main_v4).slice (win0_9.rect t)).set ↔ _
  rw [View.set_slice_whole, Rect.mem_set_unit]
  exact Iff.rfl

/-- Every index of the result is in some point's block: that of its batch and of its row's block of sixteen. -/
theorem cover (i : S4x1024x1024.Idx) :
    ∃ t : Fin cfg0.N, (cfg0.win 9).flush t = true ∧ i ∈ ((cfg0.win 9).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 16, by omega⟩
  have q0 : win0_9.index t (0 : Fin 3) = (i 0).val := congrFun ht 0
  have q1 : win0_9.index t (1 : Fin 3) = (i 1).val / 16 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 16 ≤ (i 1).val ∧ (i 1).val < win0_9.index t (1 : Fin 3) * 16 + 16; omega
  | ⟨2, _⟩ => show win0_9.index t (2 : Fin 3) * 1024 ≤ (i 2).val ∧ (i 2).val < win0_9.index t (2 : Fin 3) * 1024 + 1024; omega

/-- The result array after the run is `G` of the argument arrays. -/
theorem final (c : Dev nD) : (dats m 0 c).arrAt 9 cfg0.N = Garr m c :=
  (dats m 0 c).arrAt_eq_of_cover 9 (Garr m c) (fun t _ => flushed_eq m c t) (cover)

/-! ## The run -/

/-- Every weakly fair execution of the kernel's program terminates with the result at `G` of the arguments and
    the arguments unchanged. -/
theorem run : θ_run defs (onTc (τ := τ) (main (F := Ideal))) ⟨m, fun _ => 0, ρ⟩ fun r => ∀ c : Dev nD,
      r.2.mem ((c : Thread nD τ).loc main_v4) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference computes the same function.

  The reference builds the first layer for all `(b, i, j, h)` at once by broadcasting each factor to the four-axis
  shape, contracts the hidden axis against `W2` and then `W3` with one `dot_general` each, and applies softplus to
  the whole `[4, 1024, 1024]` array. Read at an index, every broadcast and reshape is a change of coordinates, each
  `dot_general` is the sum over the hidden axis, and the products are the specification's with their factors
  exchanged.
-/
import proofs.«107221_j23313082483163_2_alg».proof.Proof.Gen.ReferenceIdeal.Read
import proofs.«107221_j23313082483163_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.PairScore

/-! ## The first layer's four summands at `(b, i, j, h)` -/

/-- `w b i · W1 0 h`, broadcast along `j`. -/
theorem term0_apply (x0 : (⟨S4x1024, .f32⟩ : BufTy).Contents (Elt Ideal)) (x2 : (⟨S3x32, .f32⟩ : BufTy).Contents (Elt Ideal)) (b : Fin 4) (i j : Fin 1024) (h : Fin 32) :
    val_main_v14 (F := Ideal) x0 x2 (ix4 b i j h) = x0 (ix2 b i) * x2 (ix2 (0 : Fin 3) h) := by
  rw [val_main_v14_apply, val_main_v6_apply, val_main_v4_apply, val_main_v0_apply, val_main_v5_apply, val_main_v3_apply,
    val_main_v2_apply, val_main_v1_apply]
  have e0 : idx_main_v0 (idx_main_v4 (idx_main_v14 (ix4 b i j h))) = ix2 b i := by
    funext a; apply Fin.ext
    match a with
    | ⟨0, _⟩ => rfl
    | ⟨1, _⟩ => rfl
  have e1 : idx_main_v1 (idx_main_v2 (idx_main_v3 (idx_main_v5 (idx_main_v14 (ix4 b i j h))))) = ix2 (0 : Fin 3) h := by
    funext a; apply Fin.ext
    match a with
    | ⟨0, _⟩ => rfl
    | ⟨1, _⟩ => show h.val % 32 = h.val; have := h.isLt; omega
  rw [e0, e1]
  rfl

/-- `w b j · W1 1 h`, broadcast along `i`. -/
theorem term1_apply (x0 : (⟨S4x1024, .f32⟩ : BufTy).Contents (Elt Ideal)) (x2 : (⟨S3x32, .f32⟩ : BufTy).Contents (Elt Ideal)) (b : Fin 4) (i j : Fin 1024) (h : Fin 32) :
    val_main_v15 (F := Ideal) x0 x2 (ix4 b i j h) = x0 (ix2 b j) * x2 (ix2 (1 : Fin 3) h) := by
  rw [val_main_v15_apply, val_main_v13_apply, val_main_v11_apply, val_main_v7_apply, val_main_v12_apply, val_main_v10_apply,
    val_main_v9_apply, val_main_v8_apply]
  have e0 : idx_main_v7 (idx_main_v11 (idx_main_v15 (ix4 b i j h))) = ix2 b j := by
    funext a; apply Fin.ext
    match a with
    | ⟨0, _⟩ => rfl
    | ⟨1, _⟩ => rfl
  have e1 : idx_main_v8 (idx_main_v9 (idx_main_v10 (idx_main_v12 (idx_main_v15 (ix4 b i j h))))) = ix2 (1 : Fin 3) h := by
    funext a; apply Fin.ext
    match a with
    | ⟨0, _⟩ => rfl
    | ⟨1, _⟩ => show h.val % 32 = h.val; have := h.isLt; omega
  rw [e0, e1]
  rfl

/-- `d b i j · W1 2 h`. -/
theorem term2_apply (x1 : (⟨S4x1024x1024, .f32⟩ : BufTy).Contents (Elt Ideal)) (x2 : (⟨S3x32, .f32⟩ : BufTy).Contents (Elt Ideal)) (b : Fin 4) (i j : Fin 1024) (h : Fin 32) :
    val_main_v23 (F := Ideal) x1 x2 (ix4 b i j h) = x1 (ix3 b i j) * x2 (ix2 (2 : Fin 3) h) := by
  rw [val_main_v23_apply, val_main_v21_apply, val_main_v17_apply, val_main_v22_apply, val_main_v20_apply,
    val_main_v19_apply, val_main_v18_apply]
  have e0 : idx_main_v17 (idx_main_v21 (ix4 b i j h)) = ix3 b i j := by
    funext a; apply Fin.ext
    match a with
    | ⟨0, _⟩ => rfl
    | ⟨1, _⟩ => rfl
    | ⟨2, _⟩ => rfl
  have e1 : idx_main_v18 (idx_main_v19 (idx_main_v20 (idx_main_v22 (ix4 b i j h)))) = ix2 (2 : Fin 3) h := by
    funext a; apply Fin.ext
    match a with
    | ⟨0, _⟩ => rfl
    | ⟨1, _⟩ => show h.val % 32 = h.val; have := h.isLt; omega
  rw [e0, e1]
  rfl

/-- A bias vector broadcast over `(b, i, j)`. -/
theorem bias1_apply (x3 : (⟨S32, .f32⟩ : BufTy).Contents (Elt Ideal)) (b : Fin 4) (i j : Fin 1024) (h : Fin 32) :
    val_main_v26 (F := Ideal) x3 (ix4 b i j h) = x3 (ix1 h) := by
  rw [val_main_v26_apply, val_main_v25_apply]
  have e0 : idx_main_v25 (idx_main_v26 (ix4 b i j h)) = ix1 h := by
    funext a; apply Fin.ext
    match a with
    | ⟨0, _⟩ => rfl
  rw [e0]

theorem bias2_apply (x5 : (⟨S32, .f32⟩ : BufTy).Contents (Elt Ideal)) (b : Fin 4) (i j : Fin 1024) (k : Fin 32) :
    val_main_v31 (F := Ideal) x5 (ix4 b i j k) = x5 (ix1 k) := by
  rw [val_main_v31_apply, val_main_v30_apply]
  have e0 : idx_main_v30 (idx_main_v31 (ix4 b i j k)) = ix1 k := by
    funext a; apply Fin.ext
    match a with
    | ⟨0, _⟩ => rfl
  rw [e0]

theorem bias3_apply (x7 : (⟨S1, .f32⟩ : BufTy).Contents (Elt Ideal)) (b : Fin 4) (i j : Fin 1024) (u : Fin 1) :
    val_main_v36 (F := Ideal) x7 (ix4 b i j u) = x7 (ix1 (0 : Fin 1)) := by
  rw [val_main_v36_apply, val_main_v35_apply]
  have e0 : idx_main_v35 (idx_main_v36 (ix4 b i j u)) = ix1 (0 : Fin 1) := by
    funext a; apply Fin.ext
    match a with
    | ⟨0, _⟩ => rfl
  rw [e0]

/-- The zero a relu compares with. -/
theorem zero0_apply (y : S4x1024x1024x32.Idx) : val_main_call0_v0 (F := Ideal) y = 0 := by
  rw [val_main_call0_v0_apply, val_main_call0_cst_apply]; exact Ideal.ofBits_zero_f32

theorem zero1_apply (y : S4x1024x1024x32.Idx) : val_main_call1_v0 (F := Ideal) y = 0 := by
  rw [val_main_call1_v0_apply, val_main_call1_cst_apply]; exact Ideal.ofBits_zero_f32

/-! ## The layers -/

/-- The first layer after its relu. -/
theorem layer1_apply (x0 : (⟨S4x1024, .f32⟩ : BufTy).Contents (Elt Ideal)) (x1 : (⟨S4x1024x1024, .f32⟩ : BufTy).Contents (Elt Ideal)) (x2 : (⟨S3x32, .f32⟩ : BufTy).Contents (Elt Ideal)) (x3 : (⟨S32, .f32⟩ : BufTy).Contents (Elt Ideal)) (b : Fin 4) (i j : Fin 1024) (h : Fin 32) :
    val_main_v28 (F := Ideal) x0 x1 x2 x3 (ix4 b i j h)
      = hid1 (fun r h => x2 (ix2 r h)) (fun h => x3 (ix1 h)) (x0 (ix2 b i)) (x0 (ix2 b j)) (x1 (ix3 b i j)) h := by
  rw [val_main_v28_apply, val_main_v27_apply, val_main_v24_apply, val_main_v16_apply, term0_apply, term1_apply, term2_apply,
    bias1_apply, zero0_apply]
  show max (x0 (ix2 b i) * x2 (ix2 (0 : Fin 3) h) + x0 (ix2 b j) * x2 (ix2 (1 : Fin 3) h) + x1 (ix3 b i j) * x2 (ix2 (2 : Fin 3) h) + x3 (ix1 h)) 0 = _
  rw [mul_comm (x0 (ix2 b i)), mul_comm (x0 (ix2 b j)), mul_comm (x1 (ix3 b i j))]
  rfl

/-- The second layer after its relu, from the first layer at the same `(b, i, j)`. -/
theorem layer2_apply (x0 : (⟨S4x1024, .f32⟩ : BufTy).Contents (Elt Ideal)) (x1 : (⟨S4x1024x1024, .f32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (b : Fin 4) (i j : Fin 1024) (k : Fin 32) :
    val_main_v33 (F := Ideal) x0 x1 x2 x3 x4 x5 (ix4 b i j k)
      = hid2 (fun h k => x4 (ix2 h k)) (fun k => x5 (ix1 k)) (fun h => val_main_v28 (F := Ideal) x0 x1 x2 x3 (ix4 b i j h)) k := by
  rw [val_main_v33_apply, val_main_v32_apply, val_main_v29_apply, bias2_apply, zero1_apply]
  unfold hid2
  refine congrArg (max · 0) (congrArg (· + x5 (ix1 k)) (Finset.sum_congr rfl fun h _ => ?_))
  have el : lidx_main_v29 (ix4 b i j k) h = ix4 b i j h := by
    funext a; apply Fin.ext
    match a with
    | ⟨0, _⟩ => rfl
    | ⟨1, _⟩ => rfl
    | ⟨2, _⟩ => rfl
    | ⟨3, _⟩ => rfl
  have er : ridx_main_v29 (ix4 b i j k) h = ix2 h k := by
    funext a; apply Fin.ext
    match a with
    | ⟨0, _⟩ => rfl
    | ⟨1, _⟩ => rfl
  rw [el, er]
  exact mul_comm _ _

/-- The output unit, from the second layer at the same `(b, i, j)`. -/
theorem layer3_apply (x0 : (⟨S4x1024, .f32⟩ : BufTy).Contents (Elt Ideal)) (x1 : (⟨S4x1024x1024, .f32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (b : Fin 4) (i j : Fin 1024) (u : Fin 1) :
    val_main_v37 (F := Ideal) x0 x1 x2 x3 x4 x5 x6 x7 (ix4 b i j u)
      = outPre (fun k => x6 (ix2 k (0 : Fin 1))) (x7 (ix1 (0 : Fin 1))) (fun k => val_main_v33 (F := Ideal) x0 x1 x2 x3 x4 x5 (ix4 b i j k)) := by
  have hu : u = 0 := Fin.ext (by omega)
  subst hu
  rw [val_main_v37_apply, val_main_v34_apply, bias3_apply]
  unfold outPre
  refine congrArg (· + x7 (ix1 (0 : Fin 1))) (Finset.sum_congr rfl fun k _ => ?_)
  have el : lidx_main_v34 (ix4 b i j (0 : Fin 1)) k = ix4 b i j k := by
    funext a; apply Fin.ext
    match a with
    | ⟨0, _⟩ => rfl
    | ⟨1, _⟩ => rfl
    | ⟨2, _⟩ => rfl
    | ⟨3, _⟩ => rfl
  have er : ridx_main_v34 (ix4 b i j (0 : Fin 1)) k = ix2 k (0 : Fin 1) := by
    funext a; apply Fin.ext
    match a with
    | ⟨0, _⟩ => rfl
    | ⟨1, _⟩ => rfl
  rw [el, er]
  exact mul_comm _ _

/-- The trailing unit axis dropped: entry `(b, i, j)` is the four-axis array's at `(b, i, j, 0)`. -/
theorem squeeze_apply (x0 : (⟨S4x1024, .f32⟩ : BufTy).Contents (Elt Ideal)) (x1 : (⟨S4x1024x1024, .f32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (b : Fin 4) (i j : Fin 1024) :
    val_main_v38 (F := Ideal) x0 x1 x2 x3 x4 x5 x6 x7 (ix3 b i j)
      = val_main_v37 (F := Ideal) x0 x1 x2 x3 x4 x5 x6 x7 (ix4 b i j (0 : Fin 1)) := by
  unfold val_main_v38
  generalize val_main_v37 (F := Ideal) x0 x1 x2 x3 x4 x5 x6 x7 = y
  exact shapeCast_apply y shapeCasts_S4x1024x1024x1_S4x1024x1024 (ix3 b i j) (ix4 b i j (0 : Fin 1)) (by
    rw [Shape.rowMajor_val_four, Shape.rowMajor_val_three]
    show ((b.val * 1024 + i.val) * 1024 + j.val) * 1 + 0 = (b.val * 1024 + i.val) * 1024 + j.val
    omega)

/-- The zero the softplus compares with and subtracts. -/
theorem zero2_apply (y : S4x1024x1024.Idx) :
    val_main_call2_v0 (F := Ideal) y = 0 ∧ val_main_call2_v2 (F := Ideal) y = 0 ∧ val_main_call2_v5 (F := Ideal) y = 0 := by
  refine ⟨?_, ?_, ?_⟩
  · rw [val_main_call2_v0_apply, val_main_call2_cst_apply]; exact Ideal.ofBits_zero_f32
  · rw [val_main_call2_v2_apply, val_main_call2_cst_apply]; exact Ideal.ofBits_zero_f32
  · rw [val_main_call2_v5_apply, val_main_call2_cst_apply]; exact Ideal.ofBits_zero_f32

/-- The result at `(b, i, j)` is the softplus of the squeezed output unit. -/
theorem result_apply (x0 : (⟨S4x1024, .f32⟩ : BufTy).Contents (Elt Ideal)) (x1 : (⟨S4x1024x1024, .f32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (y : S4x1024x1024.Idx) :
    val_main_v39 (F := Ideal) x0 x1 x2 x3 x4 x5 x6 x7 y = softplus (val_main_v38 (F := Ideal) x0 x1 x2 x3 x4 x5 x6 x7 y) := by
  obtain ⟨h0, h2, h5⟩ := zero2_apply y
  rw [val_main_v39_apply, val_main_call2_v4_apply, val_main_call2_v6_apply, val_main_call2_v11_apply, val_main_call2_v1_apply,
    val_main_call2_v10_apply, val_main_call2_v9_apply, val_main_call2_v8_apply, val_main_call2_v7_apply, val_main_call2_v3_apply,
    h0, h2, h5]
  exact softplus_neg_form _

/-! ## The whole array -/

/-- The reference's result, as a function of its eight arguments, is the specification's `G`. -/
theorem ref_eq_G (x0 : (⟨S4x1024, .f32⟩ : BufTy).Contents (Elt Ideal)) (x1 : (⟨S4x1024x1024, .f32⟩ : BufTy).Contents (Elt Ideal)) (x2 : (⟨S3x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) :
    val_main_v39 (F := Ideal) x0 x1 x2 x3 x4 x5 x6 x7 = G x0 x1 x2 x3 x4 x5 x6 x7 := by
  funext y
  obtain ⟨b, i, j, rfl⟩ : ∃ (b : Fin 4) (i j : Fin 1024), y = ix3 b i j := ⟨y 0, y 1, y 2, eq_ix3 y⟩
  rw [result_apply, squeeze_apply, layer3_apply]
  unfold G score
  refine congrArg softplus (congrArg (outPre _ _) (funext fun k => ?_))
  rw [layer2_apply]
  refine congrArg (fun a => hid2 _ _ a k) (funext fun h => ?_)
  exact layer1_apply x0 x1 x2 x3 b i j h

end Cert.ReferenceIdeal.RefValue

end
-- ==== Proof.lean ====
/-
  The pairwise score kernel against its reference: both compute, for every batch `b` and pair of positions `(i, j)`,
    softplus (W3ᵀ · relu (W2ᵀ · relu (W1₀ · w b i + W1₁ · w b j + W1₂ · d b i j + b1) + b2) + b3),
  a perceptron 3 → 32 → 32 → 1 on the features `(w b i, w b j, d b i j)` (Proof/Spec.lean, `G`).

  The kernel walks a 4 × 64 grid; a point handles sixteen rows `i` of one batch and, per row, all 1024 columns `j` at
  once with the hidden axis leading: a broadcast sum for the first layer, `W2ᵀ` (transposed by the host before the
  launch) times the `[32, 1024]` activations for the second, `W3ᵀ` times them for the output (Proof/KernelRow.lean,
  KernelRowIdeal.lean: one row at a column; KernelBlock.lean: the sixteen rows tile the block; KernelValue.lean: the
  256 blocks tile the result). The reference broadcasts everything to `[4, 1024, 1024, 32]` and contracts the last
  axis twice (Proof/RefValue.lean). On the extended reals the narrowing of the activations to a shorter float format is
  the identity, a matrix product into the zero matrix is the sum over the contracted axis, and the two programs differ
  only in the order of the two factors of each product and in two spellings inside softplus (`0 - |z|` against
  `-|z|`; the ordered against the unordered self-comparison, both false): commutativity of the product, nothing that
  needs a finite entry, so the precondition is never opened.

  The three frames are the generated ones (the reference's is its run with the result dropped); the idealization
  rewrote nothing, so `preserves` has nothing to state.
-/
import proofs.«107221_j23313082483163_2_alg».proof.Defs
import proofs.«107221_j23313082483163_2_alg».proof.Proof.Gen.Kernel
import proofs.«107221_j23313082483163_2_alg».proof.Proof.Gen.Kernel.Skeleton
import proofs.«107221_j23313082483163_2_alg».proof.Proof.Gen.Kernel.Launch
import proofs.«107221_j23313082483163_2_alg».proof.Proof.Gen.Kernel.Points
import proofs.«107221_j23313082483163_2_alg».proof.Proof.Gen.Kernel.Frame
import proofs.«107221_j23313082483163_2_alg».proof.Proof.Gen.KernelIdeal
import proofs.«107221_j23313082483163_2_alg».proof.Proof.Gen.KernelIdeal.Skeleton
import proofs.«107221_j23313082483163_2_alg».proof.Proof.Gen.KernelIdeal.Launch
import proofs.«107221_j23313082483163_2_alg».proof.Proof.Gen.KernelIdeal.Points
import proofs.«107221_j23313082483163_2_alg».proof.Proof.Gen.KernelIdeal.Frame
import proofs.«107221_j23313082483163_2_alg».proof.Proof.Gen.ReferenceIdeal
import proofs.«107221_j23313082483163_2_alg».proof.Proof.Gen.Pre_finite_inputs
import proofs.«107221_j23313082483163_2_alg».proof.Proof.Gen.KernelIdeal.Value
import proofs.«107221_j23313082483163_2_alg».proof.Proof.Gen.ReferenceIdeal.Run
import proofs.«107221_j23313082483163_2_alg».proof.Proof.Gen.ReferenceIdeal.Read
import proofs.«107221_j23313082483163_2_alg».proof.Proof.KernelValue
import proofs.«107221_j23313082483163_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments both programs end with the result at the specification's `G`
    of those arguments: the kernel's array block by block, the reference's term index by index. -/
theorem algebraic : Cert.algebraic_KernelIdeal_ReferenceIdeal := by
  intro m ρ m' ρ' _ hagree
  refine ⟨fun c => Cert.KernelIdeal.ArrayValue.Garr m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq_G]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
